-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x6400000 : Shape := ⟨2, ![2, 6400000]⟩
abbrev S128x32 : Shape := ⟨2, ![128, 32]⟩
abbrev S32 : Shape := ⟨1, ![32]⟩
abbrev S32x32 : Shape := ⟨2, ![32, 32]⟩
abbrev S32x128 : Shape := ⟨2, ![32, 128]⟩
abbrev S128 : Shape := ⟨1, ![128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S32x128 .f32) (main_arg9 : FVec F S128 .f32) (main_v33 : IVec S_ 1) : IVec S_ 1 :=
  let main_v34 : FVec F S32x128 .f32 := Host.absf main_arg8
  let main_cst_12 : FVec F S_ .f32 := constant S_ .f32 0x7F800000#32
  let main_v35 : FVec F S32x128 .f32 := broadcastInDim S32x128 ![] bcast_S_S32x128 main_cst_12
  let main_v36 : IVec S32x128 1 := cmpf .olt main_v34 main_v35
  let main_c_13 : IVec S_ 1 := constantI S_ 1 1#1
  let main_v37 : IVec S_ 1 := (fun x v => Host.reduce IntOp.andi x v reducesTo_S32x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S32 .f32) (main_arg6 : FVec F S32x32 .f32) (main_arg7 : FVec F S32 .f32) (main_arg8 : FVec F S32x128 .f32) (main_arg9 : FVec F S128 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S200000x128 .f32) (main_arg1 : IVec S2x6400000 32) (main_arg2 : FVec F S128x32 .f32) (main_arg3 : FVec F S32 .f32) (main_arg4 : FVec F S32x32 .f32) (main_arg5 : FVec F S32 .f32) (main_arg6 : FVec F S32x32 .f32) (main_arg7 : FVec F S32 .f32) (main_arg8 : FVec F S32x128 .f32) (main_arg9 : FVec F S128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_arg8 main_arg9 main_v13 main_v16
-- ==== Kernel.lean ====
abbrev S200000x128 : Shape := ⟨2, ![200000, 128]⟩
abbrev S2x6400000 : Shape := ⟨2, ![2, 6400000]⟩
abbrev S128x32 : Shape := ⟨2, ![128, 32]⟩
abbrev S32 : Shape := ⟨1, ![32]⟩
abbrev S32x32 : Shape := ⟨2, ![32, 32]⟩
abbrev S32x128 : Shape := ⟨2, ![32, 128]⟩
abbrev S128 : Shape := ⟨1, ![128]⟩
abbrev S1x6400000 : Shape := ⟨2, ![1, 6400000]⟩
abbrev S6400000 : Shape := ⟨1, ![6400000]⟩
abbrev S200000 : Shape := ⟨1, ![200000]⟩
abbrev S6600000 : Shape := ⟨1, ![6600000]⟩
abbrev S_ : Shape := ⟨0, ![]⟩
abbrev S6600000x1 : Shape := ⟨2, ![6600000, 1]⟩
abbrev S200000x32 : Shape := ⟨2, ![200000, 32]⟩
abbrev S8000x128 : Shape := ⟨2, ![8000, 128]⟩
abbrev S8000x32 : Shape := ⟨2, ![8000, 32]⟩
abbrev S6600000x32 : Shape := ⟨2, ![6600000, 32]⟩
abbrev S1x32 : Shape := ⟨2, ![1, 32]⟩
abbrev S1x128 : Shape := ⟨2, ![1, 128]⟩

abbrev nBuf : Space → Nat
  | .hbm => 109
  | .vmem => 36
  | .smem => 0
  | _ => 0

abbrev bufTy : (tb : Table) → Fin (tcTables nBuf tb) → BufTy
  | .hbm, ⟨0, _⟩ => ⟨S200000x128, .f32⟩
  | .hbm, ⟨1, _⟩ => ⟨S2x6400000, .i32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x128, .f32⟩
  | .hbm, ⟨9, _⟩ => ⟨S128, .f32⟩
  | .hbm, ⟨10, _⟩ => ⟨S1x6400000, .i32⟩
  | .hbm, ⟨11, _⟩ => ⟨S6400000, .i32⟩
  | .hbm, ⟨12, _⟩ => ⟨S1x6400000, .i32⟩
  | .hbm, ⟨13, _⟩ => ⟨S6400000, .i32⟩
  | .hbm, ⟨14, _⟩ => ⟨S200000, .i32⟩
  | .hbm, ⟨15, _⟩ => ⟨S6600000, .i32⟩
  | .hbm, ⟨16, _⟩ => ⟨S6600000, .i32⟩
  | .hbm, ⟨17, _⟩ => ⟨S_, .f32⟩
  | .hbm, ⟨18, _⟩ => ⟨S6600000, .f32⟩
  | .hbm, ⟨19, _⟩ => ⟨S_, .f32⟩
  | .hbm, ⟨20, _⟩ => ⟨S200000, .f32⟩
  | .hbm, ⟨21, _⟩ => ⟨S6600000x1, .i32⟩
  | .hbm, ⟨22, _⟩ => ⟨S200000, .f32⟩
  | .hbm, ⟨23, _⟩ => ⟨S_, .f32⟩
  | .hbm, ⟨24, _⟩ => ⟨S200000, .f32⟩
  | .hbm, ⟨25, _⟩ => ⟨S200000, .i1⟩
  | .hbm, ⟨26, _⟩ => ⟨S200000, .f32⟩
  | .hbm, ⟨27, _⟩ => ⟨S_, .f32⟩
  | .hbm, ⟨28, _⟩ => ⟨S_, .f32⟩
  | .hbm, ⟨29, _⟩ => ⟨S200000, .f32⟩
  | .hbm, ⟨30, _⟩ => ⟨S200000, .f32⟩
  | .hbm, ⟨31, _⟩ => ⟨S_, .i32⟩
  | .hbm, ⟨32, _⟩ => ⟨S6600000, .i32⟩
  | .hbm, ⟨33, _⟩ => ⟨S6600000, .i1⟩
  | .hbm, ⟨34, _⟩ => ⟨S_, .i32⟩
  | .hbm, ⟨35, _⟩ => ⟨S6600000, .i32⟩
  | .hbm, ⟨36, _⟩ => ⟨S6600000, .i32⟩
  | .hbm, ⟨37, _⟩ => ⟨S6600000, .i32⟩
  | .hbm, ⟨38, _⟩ => ⟨S6600000x1, .i32⟩
  | .hbm, ⟨39, _⟩ => ⟨S6600000, .f32⟩
  | .hbm, ⟨40, _⟩ => ⟨S_, .i32⟩
  | .hbm, ⟨41, _⟩ => ⟨S6600000, .i32⟩
  | .hbm, ⟨42, _⟩ => ⟨S6600000, .i1⟩
  | .hbm, ⟨43, _⟩ => ⟨S_, .i32⟩
  | .hbm, ⟨44, _⟩ => ⟨S6600000, .i32⟩
  | .hbm, ⟨45, _⟩ => ⟨S6600000, .i32⟩
  | .hbm, ⟨46, _⟩ => ⟨S6600000, .i32⟩
  | .hbm, ⟨47, _⟩ => ⟨S6600000x1, .i32⟩
  | .hbm, ⟨48, _⟩ => ⟨S6600000, .f32⟩
  | .hbm, ⟨49, _⟩ => ⟨S6600000, .f32⟩
  | .hbm, ⟨50, _⟩ => ⟨S200000x32, .f32⟩
  | .hbm, ⟨51, _⟩ => ⟨S_, .i32⟩
  | .hbm, ⟨52, _⟩ => ⟨S6600000, .i32⟩
  | .hbm, ⟨53, _⟩ => ⟨S6600000, .i1⟩
  | .hbm, ⟨54, _⟩ => ⟨S_, .i32⟩
  | .hbm, ⟨55, _⟩ => ⟨S6600000, .i32⟩
  | .hbm, ⟨56, _⟩ => ⟨S6600000, .i32⟩
  | .hbm, ⟨57, _⟩ => ⟨S6600000, .i32⟩
  | .hbm, ⟨58, _⟩ => ⟨S6600000x1, .i32⟩
  | .hbm, ⟨59, _⟩ => ⟨S6600000x32, .f32⟩
  | .hbm, ⟨60, _⟩ => ⟨S6600000x1, .f32⟩
  | .hbm, ⟨61, _⟩ => ⟨S6600000x32, .f32⟩
  | .hbm, ⟨62, _⟩ => ⟨S6600000x32, .f32⟩
  | .hbm, ⟨63, _⟩ => ⟨S_, .f32⟩
  | .hbm, ⟨64, _⟩ => ⟨S200000x32, .f32⟩
  | .hbm, ⟨65, _⟩ => ⟨S6600000x1, .i32⟩
  | .hbm, ⟨66, _⟩ => ⟨S200000x32, .f32⟩
  | .hbm, ⟨67, _⟩ => ⟨S1x32, .f32⟩
  | .hbm, ⟨68, _⟩ => ⟨S200000x32, .f32⟩
  | .hbm, ⟨69, _⟩ => ⟨S200000x32, .f32⟩
  | .hbm, ⟨70, _⟩ => ⟨S_, .i32⟩
  | .hbm, ⟨71, _⟩ => ⟨S6600000, .i32⟩
  | .hbm, ⟨72, _⟩ => ⟨S6600000, .i1⟩
  | .hbm, ⟨73, _⟩ => ⟨S_, .i32⟩
  | .hbm, ⟨74, _⟩ => ⟨S6600000, .i32⟩
  | .hbm, ⟨75, _⟩ => ⟨S6600000, .i32⟩
  | .hbm, ⟨76, _⟩ => ⟨S6600000, .i32⟩
  | .hbm, ⟨77, _⟩ => ⟨S6600000x1, .i32⟩
  | .hbm, ⟨78, _⟩ => ⟨S6600000x32, .f32⟩
  | .hbm, ⟨79, _⟩ => ⟨S6600000x1, .f32⟩
  | .hbm, ⟨80, _⟩ => ⟨S6600000x32, .f32⟩
  | .hbm, ⟨81, _⟩ => ⟨S6600000x32, .f32⟩
  | .hbm, ⟨82, _⟩ => ⟨S_, .f32⟩
  | .hbm, ⟨83, _⟩ => ⟨S200000x32, .f32⟩
  | .hbm, ⟨84, _⟩ => ⟨S6600000x1, .i32⟩
  | .hbm, ⟨85, _⟩ => ⟨S200000x32, .f32⟩
  | .hbm, ⟨86, _⟩ => ⟨S1x32, .f32⟩
  | .hbm, ⟨87, _⟩ => ⟨S200000x32, .f32⟩
  | .hbm, ⟨88, _⟩ => ⟨S200000x32, .f32⟩
  | .hbm, ⟨89, _⟩ => ⟨S_, .i32⟩
  | .hbm, ⟨90, _⟩ => ⟨S6600000, .i32⟩
  | .hbm, ⟨91, _⟩ => ⟨S6600000, .i1⟩
  | .hbm, ⟨92, _⟩ => ⟨S_, .i32⟩
  | .hbm, ⟨93, _⟩ => ⟨S6600000, .i32⟩
  | .hbm, ⟨94, _⟩ => ⟨S6600000, .i32⟩
  | .hbm, ⟨95, _⟩ => ⟨S6600000, .i32⟩
  | .hbm, ⟨96, _⟩ => ⟨S6600000x1, .i32⟩
  | .hbm, ⟨97, _⟩ => ⟨S6600000x32, .f32⟩
  | .hbm, ⟨98, _⟩ => ⟨S6600000x1, .f32⟩
  | .hbm, ⟨99, _⟩ => ⟨S6600000x32, .f32⟩
  | .hbm, ⟨100, _⟩ => ⟨S6600000x32, .f32⟩
  | .hbm, ⟨101, _⟩ => ⟨S_, .f32⟩
  | .hbm, ⟨102, _⟩ => ⟨S200000x32, .f32⟩
  | .hbm, ⟨103, _⟩ => ⟨S6600000x1, .i32⟩
  | .hbm, ⟨104, _⟩ => ⟨S200000x32, .f32⟩
  | .hbm, ⟨105, _⟩ => ⟨S1x32, .f32⟩
  | .hbm, ⟨106, _⟩ => ⟨S200000x32, .f32⟩
  | .hbm, ⟨107, _⟩ => ⟨S1x128, .f32⟩
  | .hbm, ⟨108, _⟩ => ⟨S200000x128, .f32⟩
  | .local _ .vmem, ⟨0, _⟩ => ⟨S8000x128, .f32⟩
  | .local _ .vmem, ⟨1, _⟩ => ⟨S8000x128, .f32⟩
  | .local _ .vmem, ⟨2, _⟩ => ⟨S128x32, .f32⟩
  | .local _ .vmem, ⟨3, _⟩ => ⟨S8000x32, .f32⟩
  | .local _ .vmem, ⟨4, _⟩ => ⟨S8000x32, .f32⟩
  | .local _ .vmem, ⟨5, _⟩ => ⟨S8000x32, .f32⟩
  | .local _ .vmem, ⟨6, _⟩ => ⟨S8000x32, .f32⟩
  | .local _ .vmem, ⟨7, _⟩ => ⟨S1x32, .f32⟩
  | .local _ .vmem, ⟨8, _⟩ => ⟨S8000x32, .f32⟩
  | .local _ .vmem, ⟨9, _⟩ => ⟨S8000x32, .f32⟩
  | .local _ .vmem, ⟨10, _⟩ => ⟨S8000x32, .f32⟩
  | .local _ .vmem, ⟨11, _⟩ => ⟨S8000x32, .f32⟩
  | .local _ .vmem, ⟨12, _⟩ => ⟨S32x32, .f32⟩
  | .local _ .vmem, ⟨13, _⟩ => ⟨S8000x32, .f32⟩
  | .local _ .vmem, ⟨14, _⟩ => ⟨S8000x32, .f32⟩
  | .local _ .vmem, ⟨15, _⟩ => ⟨S8000x32, .f32⟩
  | .local _ .vmem, ⟨16, _⟩ => ⟨S8000x32, .f32⟩
  | .local _ .vmem, ⟨17, _⟩ => ⟨S1x32, .f32⟩
  | .local _ .vmem, ⟨18, _⟩ => ⟨S8000x32, .f32⟩
  | .local _ .vmem, ⟨19, _⟩ => ⟨S8000x32, .f32⟩
  | .local _ .vmem, ⟨20, _⟩ => ⟨S8000x32, .f32⟩
  | .local _ .vmem, ⟨21, _⟩ => ⟨S8000x32, .f32⟩
  | .local _ .vmem, ⟨22, _⟩ => ⟨S32x32, .f32⟩
  | .local _ .vmem, ⟨23, _⟩ => ⟨S8000x32, .f32⟩
  | .local _ .vmem, ⟨24, _⟩ => ⟨S8000x32, .f32⟩
  | .local _ .vmem, ⟨25, _⟩ => ⟨S8000x32, .f32⟩
  | .local _ .vmem, ⟨26, _⟩ => ⟨S8000x32, .f32⟩
  | .local _ .vmem, ⟨27, _⟩ => ⟨S1x32, .f32⟩
  | .local _ .vmem, ⟨28, _⟩ => ⟨S8000x32, .f32⟩
  | .local _ .vmem, ⟨29, _⟩ => ⟨S8000x32, .f32⟩
  | .local _ .vmem, ⟨30, _⟩ => ⟨S8000x32, .f32⟩
  | .local _ .vmem, ⟨31, _⟩ => ⟨S8000x32, .f32⟩
  | .local _ .vmem, ⟨32, _⟩ => ⟨S32x128, .f32⟩
  | .local _ .vmem, ⟨33, _⟩ => ⟨S1x128, .f32⟩
  | .local _ .vmem, ⟨34, _⟩ => ⟨S8000x128, .f32⟩
  | .local _ .vmem, ⟨35, _⟩ => ⟨S8000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_12 : Ref sig .tc := ⟨.hbm, 89, rfl⟩
abbrev main_v63 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_14 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg3_0 : Ref sig .tc := ⟨.vmem, 34, rfl⟩
abbrev cc6_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem3_0 : DmaSem sig := 34
abbrev cc6_sem3_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S8000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S8000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S8000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S8000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S8000x32_S8000x32_0_0 : ∀ a, (![0, 0] : Fin 2 → Nat) a + S8000x32.size a ≤ S8000x32.size a
  h_S8000x32 : 0 < S8000x32.numel
  bcast_S6600000x1_S6600000x32_0_1 : S6600000x1.BroadcastsInDim S6600000x32 (![0, 1] : Fin 2 → Fin S6600000x32.rank)
  bcast_S_S200000x32 : S_.BroadcastsInDim S200000x32 (![] : Fin 0 → Fin S200000x32.rank)
  shapeCasts_S32_S1x32 : S32.ShapeCasts S1x32
  shapeCasts_S8000x32_S8000x32 : S8000x32.ShapeCasts S8000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  inb_S32x32_S32x32_0_0 : ∀ a, (![0, 0] : Fin 2 → Nat) a + S32x32.size a ≤ S32x32.size a
  h_S32x32 : 0 < S32x32.numel
  shapeCasts_S128_S1x128 : S128.ShapeCasts S1x128
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S8000x128_S128x32_S8000x32_1_0_0_1_n_n_wf : DotDims.WF S8000x128 S128x32 S8000x32 [1] [0] [0] [1] [] []
  gather_S200000x32_S6600000x1_S6600000x32_1_0_n_n_0_1_132_wf : GatherDims.WF S200000x32 S6600000x1 S6600000x32 [1] [0] [] [0] [] 1 ![1, 32]
  scatter_S200000x32_S6600000x1_S6600000x32_1_0_0_1_wf : ScatterDims.WF S200000x32 S6600000x1 S6600000x32 [1] [0] [0] 1
  dot_S8000x32_S32x32_S8000x32_1_0_0_1_n_n_wf : DotDims.WF S8000x32 S32x32 S8000x32 [1] [0] [0] [1] [] []
  dot_S8000x32_S32x128_S8000x128_1_0_0_1_n_n_wf : DotDims.WF S8000x32 S32x128 S8000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S200000x128.size a
  hwx0_0 : ∀ i : grid0.Coords, EltTy.bits .f32 = 32 ∨ (Rect.block (s := S200000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x32.size a ≤ S200000x32.size a
  hwx0_2 : ∀ i : grid0.Coords, EltTy.bits .f32 = 32 ∨ (Rect.block (s := S200000x32) S8000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x32.size a ≤ S200000x32.size a
  hwx1_0 : ∀ i : grid1.Coords, EltTy.bits .f32 = 32 ∨ (Rect.block (s := S200000x32) S8000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x32.size a ≤ S200000x32.size a
  hwx1_2 : ∀ i : grid1.Coords, EltTy.bits .f32 = 32 ∨ (Rect.block (s := S200000x32) S8000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x32.size a ≤ S200000x32.size a
  hwx2_0 : ∀ i : grid2.Coords, EltTy.bits .f32 = 32 ∨ (Rect.block (s := S200000x32) S8000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x32.size a ≤ S200000x32.size a
  hwx2_2 : ∀ i : grid2.Coords, EltTy.bits .f32 = 32 ∨ (Rect.block (s := S200000x32) S8000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x32.size a ≤ S200000x32.size a
  hwx3_0 : ∀ i : grid3.Coords, EltTy.bits .f32 = 32 ∨ (Rect.block (s := S200000x32) S8000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x32.size a ≤ S200000x32.size a
  hwx3_2 : ∀ i : grid3.Coords, EltTy.bits .f32 = 32 ∨ (Rect.block (s := S200000x32) S8000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x32.size a ≤ S200000x32.size a
  hwx4_0 : ∀ i : grid4.Coords, EltTy.bits .f32 = 32 ∨ (Rect.block (s := S200000x32) S8000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x32.size a ≤ S32x32.size a
  hwx4_1 : ∀ i : grid4.Coords, EltTy.bits .f32 = 32 ∨ (Rect.block (s := S32x32) S32x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x32.size a ≤ S200000x32.size a
  hwx4_2 : ∀ i : grid4.Coords, EltTy.bits .f32 = 32 ∨ (Rect.block (s := S200000x32) S8000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x32.size a ≤ S200000x32.size a
  hwx5_0 : ∀ i : grid5.Coords, EltTy.bits .f32 = 32 ∨ (Rect.block (s := S200000x32) S8000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8000x32.size a ≤ S200000x32.size a
  hwx5_2 : ∀ i : grid5.Coords, EltTy.bits .f32 = 32 ∨ (Rect.block (s := S200000x32) S8000x32.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8000x32.size a ≤ S200000x32.size a
  hwx6_0 : ∀ i : grid6.Coords, EltTy.bits .f32 = 32 ∨ (Rect.block (s := S200000x32) S8000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x128.size a ≤ S32x128.size a
  hwx6_1 : ∀ i : grid6.Coords, EltTy.bits .f32 = 32 ∨ (Rect.block (s := S32x128) S32x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S8000x128.size a ≤ S200000x128.size a
  hwx6_3 : ∀ i : grid6.Coords, EltTy.bits .f32 = 32 ∨ (Rect.block (s := S200000x128) S8000x128.size (cc6_transform_3 i) (hinb6_3 i)).WholeWords (EltTy.packing .f32)

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S8000x128_S128x32_S8000x32_1_0_0_1_n_n : DotDims S8000x128 S128x32 S8000x32 where
  lhsContracting := [1]
  rhsContracting := [0]
  lhsNonContracting := [0]
  rhsNonContracting := [1]
  lhsBatch := []
  rhsBatch := []
  wf := dot_S8000x128_S128x32_S8000x32_1_0_0_1_n_n_wf
def gather_S200000x32_S6600000x1_S6600000x32_1_0_n_n_0_1_132 : GatherDims S200000x32 S6600000x1 S6600000x32 where
  offsetDims := [1]
  collapsedSliceDims := [0]
  operandBatchingDims := []
  startIndicesBatchingDims := []
  startIndexMap := [0]
  indexVectorDim := 1
  sliceSizes := ![1, 32]
  wf := gather_S200000x32_S6600000x1_S6600000x32_1_0_n_n_0_1_132_wf
def scatter_S200000x32_S6600000x1_S6600000x32_1_0_0_1 : ScatterDims S200000x32 S6600000x1 S6600000x32 where
  updateWindowDims := [1]
  insertedWindowDims := [0]
  scatterDimsToOperandDims := [0]
  indexVectorDim := 1
  wf := scatter_S200000x32_S6600000x1_S6600000x32_1_0_0_1_wf
def dot_S8000x32_S32x32_S8000x32_1_0_0_1_n_n : DotDims S8000x32 S32x32 S8000x32 where
  lhsContracting := [1]
  rhsContracting := [0]
  lhsNonContracting := [0]
  rhsNonContracting := [1]
  lhsBatch := []
  rhsBatch := []
  wf := dot_S8000x32_S32x32_S8000x32_1_0_0_1_n_n_wf
def dot_S8000x32_S32x128_S8000x128_1_0_0_1_n_n : DotDims S8000x32 S32x128 S8000x128 where
  lhsContracting := [1]
  rhsContracting := [0]
  lhsNonContracting := [0]
  rhsNonContracting := [1]
  lhsBatch := []
  rhsBatch := []
  wf := dot_S8000x32_S32x128_S8000x128_1_0_0_1_n_n_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S8000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S8000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S8000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S8000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S8000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S8000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S8000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S8000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S32x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S8000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S8000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S8000x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v77) S8000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S32x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v78) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v79) S8000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S200000x128 : Shape := ⟨2, ![200000, 128]⟩
abbrev S2x6400000 : Shape := ⟨2, ![2, 6400000]⟩
abbrev S128x32 : Shape := ⟨2, ![128, 32]⟩
abbrev S32 : Shape := ⟨1, ![32]⟩
abbrev S32x32 : Shape := ⟨2, ![32, 32]⟩
abbrev S32x128 : Shape := ⟨2, ![32, 128]⟩
abbrev S128 : Shape := ⟨1, ![128]⟩
abbrev S1x6400000 : Shape := ⟨2, ![1, 6400000]⟩
abbrev S6400000 : Shape := ⟨1, ![6400000]⟩
abbrev S200000x32 : Shape := ⟨2, ![200000, 32]⟩
abbrev S200000 : Shape := ⟨1, ![200000]⟩
abbrev S6600000 : Shape := ⟨1, ![6600000]⟩
abbrev S_ : Shape := ⟨0, ![]⟩
abbrev S6600000x1 : Shape := ⟨2, ![6600000, 1]⟩
abbrev S6600000x32 : Shape := ⟨2, ![6600000, 32]⟩
abbrev S1x32 : Shape := ⟨2, ![1, 32]⟩
abbrev S1x128 : Shape := ⟨2, ![1, 128]⟩

abbrev nBuf : Space → Nat
  | .hbm => 210
  | .vmem => 0
  | .smem => 0
  | _ => 0

abbrev hbmTy0_0 (i : Nat) : BufTy := match i % 128 with
  | 0 => ⟨S200000x128, .f32⟩
  | 1 => ⟨S2x6400000, .i32⟩
  | 2 => ⟨S128x32, .f32⟩
  | 3 => ⟨S32, .f32⟩
  | 4 => ⟨S32x32, .f32⟩
  | 5 => ⟨S32, .f32⟩
  | 6 => ⟨S32x32, .f32⟩
  | 7 => ⟨S32, .f32⟩
  | 8 => ⟨S32x128, .f32⟩
  | 9 => ⟨S128, .f32⟩
  | 10 => ⟨S1x6400000, .i32⟩
  | 11 => ⟨S6400000, .i32⟩
  | 12 => ⟨S1x6400000, .i32⟩
  | 13 => ⟨S6400000, .i32⟩
  | 14 => ⟨S200000x32, .f32⟩
  | 15 => ⟨S200000, .i32⟩
  | 16 => ⟨S6600000, .i32⟩
  | 17 => ⟨S6600000, .i32⟩
  | 18 => ⟨S_, .f32⟩
  | 19 => ⟨S6600000, .f32⟩
  | 20 => ⟨S_, .f32⟩
  | 21 => ⟨S200000, .f32⟩
  | 22 => ⟨S6600000x1, .i32⟩
  | 23 => ⟨S200000, .f32⟩
  | 24 => ⟨S_, .f32⟩
  | 25 => ⟨S200000, .f32⟩
  | 26 => ⟨S200000, .i1⟩
  | 27 => ⟨S200000, .f32⟩
  | 28 => ⟨S_, .f32⟩
  | 29 => ⟨S_, .f32⟩
  | 30 => ⟨S200000, .f32⟩
  | 31 => ⟨S200000, .f32⟩
  | 32 => ⟨S_, .i32⟩
  | 33 => ⟨S6600000, .i32⟩
  | 34 => ⟨S6600000, .i1⟩
  | 35 => ⟨S_, .i32⟩
  | 36 => ⟨S6600000, .i32⟩
  | 37 => ⟨S6600000, .i32⟩
  | 38 => ⟨S6600000, .i32⟩
  | 39 => ⟨S6600000x1, .i32⟩
  | 40 => ⟨S6600000, .f32⟩
  | 41 => ⟨S_, .i32⟩
  | 42 => ⟨S6600000, .i32⟩
  | 43 => ⟨S6600000, .i1⟩
  | 44 => ⟨S_, .i32⟩
  | 45 => ⟨S6600000, .i32⟩
  | 46 => ⟨S6600000, .i32⟩
  | 47 => ⟨S6600000, .i32⟩
  | 48 => ⟨S6600000x1, .i32⟩
  | 49 => ⟨S6600000, .f32⟩
  | 50 => ⟨S6600000, .f32⟩
  | 51 => ⟨S_, .i32⟩
  | 52 => ⟨S6600000, .i32⟩
  | 53 => ⟨S6600000, .i1⟩
  | 54 => ⟨S_, .i32⟩
  | 55 => ⟨S6600000, .i32⟩
  | 56 => ⟨S6600000, .i32⟩
  | 57 => ⟨S6600000, .i32⟩
  | 58 => ⟨S6600000x1, .i32⟩
  | 59 => ⟨S6600000x32, .f32⟩
  | 60 => ⟨S6600000x1, .f32⟩
  | 61 => ⟨S6600000x32, .f32⟩
  | 62 => ⟨S6600000x32, .f32⟩
  | 63 => ⟨S_, .f32⟩
  | 64 => ⟨S200000x32, .f32⟩
  | 65 => ⟨S6600000x1, .i32⟩
  | 66 => ⟨S200000x32, .f32⟩
  | 67 => ⟨S1x32, .f32⟩
  | 68 => ⟨S200000x32, .f32⟩
  | 69 => ⟨S200000x32, .f32⟩
  | 70 => ⟨S200000x32, .f32⟩
  | 71 => ⟨S200000x32, .f32⟩
  | 72 => ⟨S_, .f32⟩
  | 73 => ⟨S200000x32, .f32⟩
  | 74 => ⟨S200000x32, .f32⟩
  | 75 => ⟨S_, .f32⟩
  | 76 => ⟨S200000x32, .f32⟩
  | 77 => ⟨S200000x32, .f32⟩
  | 78 => ⟨S200000x32, .f32⟩
  | 79 => ⟨S200000, .i32⟩
  | 80 => ⟨S6600000, .i32⟩
  | 81 => ⟨S6600000, .i32⟩
  | 82 => ⟨S_, .f32⟩
  | 83 => ⟨S6600000, .f32⟩
  | 84 => ⟨S_, .f32⟩
  | 85 => ⟨S200000, .f32⟩
  | 86 => ⟨S6600000x1, .i32⟩
  | 87 => ⟨S200000, .f32⟩
  | 88 => ⟨S_, .f32⟩
  | 89 => ⟨S200000, .f32⟩
  | 90 => ⟨S200000, .i1⟩
  | 91 => ⟨S200000, .f32⟩
  | 92 => ⟨S_, .f32⟩
  | 93 => ⟨S_, .f32⟩
  | 94 => ⟨S200000, .f32⟩
  | 95 => ⟨S200000, .f32⟩
  | 96 => ⟨S_, .i32⟩
  | 97 => ⟨S6600000, .i32⟩
  | 98 => ⟨S6600000, .i1⟩
  | 99 => ⟨S_, .i32⟩
  | 100 => ⟨S6600000, .i32⟩
  | 101 => ⟨S6600000, .i32⟩
  | 102 => ⟨S6600000, .i32⟩
  | 103 => ⟨S6600000x1, .i32⟩
  | 104 => ⟨S6600000, .f32⟩
  | 105 => ⟨S_, .i32⟩
  | 106 => ⟨S6600000, .i32⟩
  | 107 => ⟨S6600000, .i1⟩
  | 108 => ⟨S_, .i32⟩
  | 109 => ⟨S6600000, .i32⟩
  | 110 => ⟨S6600000, .i32⟩
  | 111 => ⟨S6600000, .i32⟩
  | 112 => ⟨S6600000x1, .i32⟩
  | 113 => ⟨S6600000, .f32⟩
  | 114 => ⟨S6600000, .f32⟩
  | 115 => ⟨S_, .i32⟩
  | 116 => ⟨S6600000, .i32⟩
  | 117 => ⟨S6600000, .i1⟩
  | 118 => ⟨S_, .i32⟩
  | 119 => ⟨S6600000, .i32⟩
  | 120 => ⟨S6600000, .i32⟩
  | 121 => ⟨S6600000, .i32⟩
  | 122 => ⟨S6600000x1, .i32⟩
  | 123 => ⟨S6600000x32, .f32⟩
  | 124 => ⟨S6600000x1, .f32⟩
  | 125 => ⟨S6600000x32, .f32⟩
  | 126 => ⟨S6600000x32, .f32⟩
  | 127 => ⟨S_, .f32⟩
  | _ => ⟨S200000x128, .f32⟩

abbrev hbmTy0_1 (i : Nat) : BufTy := match i % 128 with
  | 0 => ⟨S200000x32, .f32⟩
  | 1 => ⟨S6600000x1, .i32⟩
  | 2 => ⟨S200000x32, .f32⟩
  | 3 => ⟨S1x32, .f32⟩
  | 4 => ⟨S200000x32, .f32⟩
  | 5 => ⟨S200000x32, .f32⟩
  | 6 => ⟨S200000x32, .f32⟩
  | 7 => ⟨S200000x32, .f32⟩
  | 8 => ⟨S_, .f32⟩
  | 9 => ⟨S200000x32, .f32⟩
  | 10 => ⟨S200000x32, .f32⟩
  | 11 => ⟨S_, .f32⟩
  | 12 => ⟨S200000x32, .f32⟩
  | 13 => ⟨S200000x32, .f32⟩
  | 14 => ⟨S200000x32, .f32⟩
  | 15 => ⟨S200000, .i32⟩
  | 16 => ⟨S6600000, .i32⟩
  | 17 => ⟨S6600000, .i32⟩
  | 18 => ⟨S_, .f32⟩
  | 19 => ⟨S6600000, .f32⟩
  | 20 => ⟨S_, .f32⟩
  | 21 => ⟨S200000, .f32⟩
  | 22 => ⟨S6600000x1, .i32⟩
  | 23 => ⟨S200000, .f32⟩
  | 24 => ⟨S_, .f32⟩
  | 25 => ⟨S200000, .f32⟩
  | 26 => ⟨S200000, .i1⟩
  | 27 => ⟨S200000, .f32⟩
  | 28 => ⟨S_, .f32⟩
  | 29 => ⟨S_, .f32⟩
  | 30 => ⟨S200000, .f32⟩
  | 31 => ⟨S200000, .f32⟩
  | 32 => ⟨S_, .i32⟩
  | 33 => ⟨S6600000, .i32⟩
  | 34 => ⟨S6600000, .i1⟩
  | 35 => ⟨S_, .i32⟩
  | 36 => ⟨S6600000, .i32⟩
  | 37 => ⟨S6600000, .i32⟩
  | 38 => ⟨S6600000, .i32⟩
  | 39 => ⟨S6600000x1, .i32⟩
  | 40 => ⟨S6600000, .f32⟩
  | 41 => ⟨S_, .i32⟩
  | 42 => ⟨S6600000, .i32⟩
  | 43 => ⟨S6600000, .i1⟩
  | 44 => ⟨S_, .i32⟩
  | 45 => ⟨S6600000, .i32⟩
  | 46 => ⟨S6600000, .i32⟩
  | 47 => ⟨S6600000, .i32⟩
  | 48 => ⟨S6600000x1, .i32⟩
  | 49 => ⟨S6600000, .f32⟩
  | 50 => ⟨S6600000, .f32⟩
  | 51 => ⟨S_, .i32⟩
  | 52 => ⟨S6600000, .i32⟩
  | 53 => ⟨S6600000, .i1⟩
  | 54 => ⟨S_, .i32⟩
  | 55 => ⟨S6600000, .i32⟩
  | 56 => ⟨S6600000, .i32⟩
  | 57 => ⟨S6600000, .i32⟩
  | 58 => ⟨S6600000x1, .i32⟩
  | 59 => ⟨S6600000x32, .f32⟩
  | 60 => ⟨S6600000x1, .f32⟩
  | 61 => ⟨S6600000x32, .f32⟩
  | 62 => ⟨S6600000x32, .f32⟩
  | 63 => ⟨S_, .f32⟩
  | 64 => ⟨S200000x32, .f32⟩
  | 65 => ⟨S6600000x1, .i32⟩
  | 66 => ⟨S200000x32, .f32⟩
  | 67 => ⟨S1x32, .f32⟩
  | 68 => ⟨S200000x32, .f32⟩
  | 69 => ⟨S200000x32, .f32⟩
  | 70 => ⟨S200000x128, .f32⟩
  | 71 => ⟨S1x128, .f32⟩
  | 72 => ⟨S200000x128, .f32⟩
  | 73 => ⟨S200000x128, .f32⟩
  | 74 => ⟨S200000x128, .f32⟩
  | 75 => ⟨S200000x128, .f32⟩
  | 76 => ⟨S_, .f32⟩
  | 77 => ⟨S200000x128, .f32⟩
  | 78 => ⟨S200000x128, .f32⟩
  | 79 => ⟨S_, .f32⟩
  | 80 => ⟨S200000x128, .f32⟩
  | 81 => ⟨S200000x128, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_cst_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_13 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_14 : Ref sig .tc := ⟨.hbm, 92, rfl⟩
abbrev main_call1_v0 : Ref sig .tc := ⟨.hbm, 93, rfl⟩
abbrev main_call1_v1 : Ref sig .tc := ⟨.hbm, 94, rfl⟩
abbrev main_v64 : Ref sig .tc := ⟨.hbm, 95, rfl⟩
abbrev main_c_15 : Ref sig .tc := ⟨.hbm, 96, rfl⟩
abbrev main_v65 : Ref sig .tc := ⟨.hbm, 97, rfl⟩
abbrev main_v66 : Ref sig .tc := ⟨.hbm, 98, rfl⟩
abbrev main_c_16 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_c_19 : Ref sig .tc := ⟨.hbm, 115, rfl⟩
abbrev main_v80 : Ref sig .tc := ⟨.hbm, 116, rfl⟩
abbrev main_v81 : Ref sig .tc := ⟨.hbm, 117, rfl⟩
abbrev main_c_20 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_21 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_22 : Ref sig .tc := ⟨.hbm, 136, rfl⟩
abbrev main_v98 : Ref sig .tc := ⟨.hbm, 137, rfl⟩
abbrev main_v99 : Ref sig .tc := ⟨.hbm, 138, rfl⟩
abbrev main_cst_23 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_24 : Ref sig .tc := ⟨.hbm, 146, rfl⟩
abbrev main_v106 : Ref sig .tc := ⟨.hbm, 147, rfl⟩
abbrev main_cst_25 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_cst_26 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_cst_27 : Ref sig .tc := ⟨.hbm, 156, rfl⟩
abbrev main_call2_v0 : Ref sig .tc := ⟨.hbm, 157, rfl⟩
abbrev main_call2_v1 : Ref sig .tc := ⟨.hbm, 158, rfl⟩
abbrev main_v113 : Ref sig .tc := ⟨.hbm, 159, rfl⟩
abbrev main_c_28 : Ref sig .tc := ⟨.hbm, 160, rfl⟩
abbrev main_v114 : Ref sig .tc := ⟨.hbm, 161, rfl⟩
abbrev main_v115 : Ref sig .tc := ⟨.hbm, 162, rfl⟩
abbrev main_c_29 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_c_30 : Ref sig .tc := ⟨.hbm, 169, rfl⟩
abbrev main_v121 : Ref sig .tc := ⟨.hbm, 170, rfl⟩
abbrev main_v122 : Ref sig .tc := ⟨.hbm, 171, rfl⟩
abbrev main_c_31 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_c_32 : Ref sig .tc := ⟨.hbm, 179, rfl⟩
abbrev main_v129 : Ref sig .tc := ⟨.hbm, 180, rfl⟩
abbrev main_v130 : Ref sig .tc := ⟨.hbm, 181, rfl⟩
abbrev main_c_33 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_cst_34 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_cst_35 : Ref sig .tc := ⟨.hbm, 204, rfl⟩
abbrev main_v151 : Ref sig .tc := ⟨.hbm, 205, rfl⟩
abbrev main_v152 : Ref sig .tc := ⟨.hbm, 206, rfl⟩
abbrev main_cst_36 : Ref sig .tc := ⟨.hbm, 207, rfl⟩
abbrev main_v153 : Ref sig .tc := ⟨.hbm, 208, rfl⟩
abbrev main_v154 : Ref sig .tc := ⟨.hbm, 209, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x32_0_1 : S6600000x1.BroadcastsInDim S6600000x32 (![0, 1] : Fin 2 → Fin S6600000x32.rank)
  bcast_S_S200000x32 : S_.BroadcastsInDim S200000x32 (![] : Fin 0 → Fin S200000x32.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  dot_S200000x128_S128x32_S200000x32_1_0_0_1_n_n_wf : DotDims.WF S200000x128 S128x32 S200000x32 [1] [0] [0] [1] [] []
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  gather_S200000x32_S6600000x1_S6600000x32_1_0_n_n_0_1_132_wf : GatherDims.WF S200000x32 S6600000x1 S6600000x32 [1] [0] [] [0] [] 1 ![1, 32]
  scatter_S200000x32_S6600000x1_S6600000x32_1_0_0_1_wf : ScatterDims.WF S200000x32 S6600000x1 S6600000x32 [1] [0] [0] 1
  dot_S200000x32_S32x32_S200000x32_1_0_0_1_n_n_wf : DotDims.WF S200000x32 S32x32 S200000x32 [1] [0] [0] [1] [] []
  dot_S200000x32_S32x128_S200000x128_1_0_0_1_n_n_wf : DotDims.WF S200000x32 S32x128 S200000x128 [1] [0] [0] [1] [] []

variable [Facts₀]

def dot_S200000x128_S128x32_S200000x32_1_0_0_1_n_n : DotDims S200000x128 S128x32 S200000x32 where
  lhsContracting := [1]
  rhsContracting := [0]
  lhsNonContracting := [0]
  rhsNonContracting := [1]
  lhsBatch := []
  rhsBatch := []
  wf := dot_S200000x128_S128x32_S200000x32_1_0_0_1_n_n_wf
def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def gather_S200000x32_S6600000x1_S6600000x32_1_0_n_n_0_1_132 : GatherDims S200000x32 S6600000x1 S6600000x32 where
  offsetDims := [1]
  collapsedSliceDims := [0]
  operandBatchingDims := []
  startIndicesBatchingDims := []
  startIndexMap := [0]
  indexVectorDim := 1
  sliceSizes := ![1, 32]
  wf := gather_S200000x32_S6600000x1_S6600000x32_1_0_n_n_0_1_132_wf
def scatter_S200000x32_S6600000x1_S6600000x32_1_0_0_1 : ScatterDims S200000x32 S6600000x1 S6600000x32 where
  updateWindowDims := [1]
  insertedWindowDims := [0]
  scatterDimsToOperandDims := [0]
  indexVectorDim := 1
  wf := scatter_S200000x32_S6600000x1_S6600000x32_1_0_0_1_wf
def dot_S200000x32_S32x32_S200000x32_1_0_0_1_n_n : DotDims S200000x32 S32x32 S200000x32 where
  lhsContracting := [1]
  rhsContracting := [0]
  lhsNonContracting := [0]
  rhsNonContracting := [1]
  lhsBatch := []
  rhsBatch := []
  wf := dot_S200000x32_S32x32_S200000x32_1_0_0_1_n_n_wf
def dot_S200000x32_S32x128_S200000x128_1_0_0_1_n_n : DotDims S200000x32 S32x128 S200000x128 where
  lhsContracting := [1]
  rhsContracting := [0]
  lhsNonContracting := [0]
  rhsNonContracting := [1]
  lhsBatch := []
  rhsBatch := []
  wf := dot_S200000x32_S32x128_S200000x128_1_0_0_1_n_n_wf

class Facts : Prop extends Facts₀ where

variable [Facts]
-- ==== Proof.KernelRun.lean ====
/-
  The kernel program's run with its result named.

  The program is seven tiled regions among stretches of host operations. The run below is the one that shows the
  program terminates with its arguments unchanged, stated with one more fact in its conclusion: the result buffer ends
  holding what the fold of the segments leaves there (the contents after the last region, read at the result's
  reference). What that is, as a function of the arguments, is the next modules' business.
-/
import proofs.«128537_j40252433498207_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the conclusion's memories and post are matched against the launch theorem's up to unfolding definitions
set_option backward.isDefEq.respectTransparency.types false in
/-- Every weakly fair execution of the program terminates, nothing faulting, with the result buffer at the last
    boundary's contents and every argument as launched. -/
theorem run : θ_run defs (onTc (τ := τ) (main (F := F))) ⟨m, fun _ => 0, ρ⟩ (fun r => ∀ c : Dev nD,
      r.2.mem ((c.tc : Thread nD τ).loc main_v79) = W14 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v79 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c)⟩)

end Cert.KernelIdeal.Whole

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.Bodies.lean ====
/-
  What each kernel body stores, read at one entry (p, q) of its row tile, on the extended reals.

  A tile of 8000 node rows goes through one of four bodies: rows times a weight matrix (the narrowing of the operands
  to a shorter float format is the identity on the extended reals, and the product accumulates into zeros); a bias row
  added to every row, with or without the logistic function after it; and the product, the bias and the logistic
  function in one body.
-/
import proofs.«128537_j40252433498207_1_alg».proof.Proof.Gen.KernelIdeal.Skeleton
import proofs.«128537_j40252433498207_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Bodies

open Cert.KernelIdeal Cert.KernelIdeal.Gen Idealize.ShloMosaic Idealize.ShloMosaic.ValueIdx

/-! ## The three products' dimension numbers: which operand entries meet at output entry i and contraction position q -/

theorem da_l0 (i : S8000x32.Idx) (q : dot_S8000x128_S128x32_S8000x32_1_0_0_1_n_n.contr.Idx) : (dot_S8000x128_S128x32_S8000x32_1_0_0_1_n_n.lhsIdx i q 0).val = (i 0).val := by
  unfold DotDims.lhsIdx
  rw [dif_neg (show ¬(0 : Fin S8000x128.rank) ∈ dot_S8000x128_S128x32_S8000x32_1_0_0_1_n_n.lhsBatch by decide), dif_pos (show (0 : Fin S8000x128.rank) ∈ dot_S8000x128_S128x32_S8000x32_1_0_0_1_n_n.lhsNonContracting by decide)]
  rfl
theorem da_l1 (i : S8000x32.Idx) (q : dot_S8000x128_S128x32_S8000x32_1_0_0_1_n_n.contr.Idx) : (dot_S8000x128_S128x32_S8000x32_1_0_0_1_n_n.lhsIdx i q 1).val = (q ⟨0, by decide⟩).val :=
  dot_S8000x128_S128x32_S8000x32_1_0_0_1_n_n.lhsIdx_val_of_single rfl i q
theorem da_r0 (i : S8000x32.Idx) (q : dot_S8000x128_S128x32_S8000x32_1_0_0_1_n_n.contr.Idx) : (dot_S8000x128_S128x32_S8000x32_1_0_0_1_n_n.rhsIdx i q 0).val = (q ⟨0, by decide⟩).val :=
  dot_S8000x128_S128x32_S8000x32_1_0_0_1_n_n.rhsIdx_val_of_single rfl i q
theorem da_r1 (i : S8000x32.Idx) (q : dot_S8000x128_S128x32_S8000x32_1_0_0_1_n_n.contr.Idx) : (dot_S8000x128_S128x32_S8000x32_1_0_0_1_n_n.rhsIdx i q 1).val = (i 1).val := by
  unfold DotDims.rhsIdx
  rw [dif_neg (show ¬(1 : Fin S128x32.rank) ∈ dot_S8000x128_S128x32_S8000x32_1_0_0_1_n_n.rhsBatch by decide), dif_pos (show (1 : Fin S128x32.rank) ∈ dot_S8000x128_S128x32_S8000x32_1_0_0_1_n_n.rhsNonContracting by decide)]
  rfl

theorem db_l0 (i : S8000x32.Idx) (q : dot_S8000x32_S32x32_S8000x32_1_0_0_1_n_n.contr.Idx) : (dot_S8000x32_S32x32_S8000x32_1_0_0_1_n_n.lhsIdx i q 0).val = (i 0).val := by
  unfold DotDims.lhsIdx
  rw [dif_neg (show ¬(0 : Fin S8000x32.rank) ∈ dot_S8000x32_S32x32_S8000x32_1_0_0_1_n_n.lhsBatch by decide), dif_pos (show (0 : Fin S8000x32.rank) ∈ dot_S8000x32_S32x32_S8000x32_1_0_0_1_n_n.lhsNonContracting by decide)]
  rfl
theorem db_l1 (i : S8000x32.Idx) (q : dot_S8000x32_S32x32_S8000x32_1_0_0_1_n_n.contr.Idx) : (dot_S8000x32_S32x32_S8000x32_1_0_0_1_n_n.lhsIdx i q 1).val = (q ⟨0, by decide⟩).val :=
  dot_S8000x32_S32x32_S8000x32_1_0_0_1_n_n.lhsIdx_val_of_single rfl i q
theorem db_r0 (i : S8000x32.Idx) (q : dot_S8000x32_S32x32_S8000x32_1_0_0_1_n_n.contr.Idx) : (dot_S8000x32_S32x32_S8000x32_1_0_0_1_n_n.rhsIdx i q 0).val = (q ⟨0, by decide⟩).val :=
  dot_S8000x32_S32x32_S8000x32_1_0_0_1_n_n.rhsIdx_val_of_single rfl i q
theorem db_r1 (i : S8000x32.Idx) (q : dot_S8000x32_S32x32_S8000x32_1_0_0_1_n_n.contr.Idx) : (dot_S8000x32_S32x32_S8000x32_1_0_0_1_n_n.rhsIdx i q 1).val = (i 1).val := by
  unfold DotDims.rhsIdx
  rw [dif_neg (show ¬(1 : Fin S32x32.rank) ∈ dot_S8000x32_S32x32_S8000x32_1_0_0_1_n_n.rhsBatch by decide), dif_pos (show (1 : Fin S32x32.rank) ∈ dot_S8000x32_S32x32_S8000x32_1_0_0_1_n_n.rhsNonContracting by decide)]
  rfl

theorem dc_l0 (i : S8000x128.Idx) (q : dot_S8000x32_S32x128_S8000x128_1_0_0_1_n_n.contr.Idx) : (dot_S8000x32_S32x128_S8000x128_1_0_0_1_n_n.lhsIdx i q 0).val = (i 0).val := by
  unfold DotDims.lhsIdx
  rw [dif_neg (show ¬(0 : Fin S8000x32.rank) ∈ dot_S8000x32_S32x128_S8000x128_1_0_0_1_n_n.lhsBatch by decide), dif_pos (show (0 : Fin S8000x32.rank) ∈ dot_S8000x32_S32x128_S8000x128_1_0_0_1_n_n.lhsNonContracting by decide)]
  rfl
theorem dc_l1 (i : S8000x128.Idx) (q : dot_S8000x32_S32x128_S8000x128_1_0_0_1_n_n.contr.Idx) : (dot_S8000x32_S32x128_S8000x128_1_0_0_1_n_n.lhsIdx i q 1).val = (q ⟨0, by decide⟩).val :=
  dot_S8000x32_S32x128_S8000x128_1_0_0_1_n_n.lhsIdx_val_of_single rfl i q
theorem dc_r0 (i : S8000x128.Idx) (q : dot_S8000x32_S32x128_S8000x128_1_0_0_1_n_n.contr.Idx) : (dot_S8000x32_S32x128_S8000x128_1_0_0_1_n_n.rhsIdx i q 0).val = (q ⟨0, by decide⟩).val :=
  dot_S8000x32_S32x128_S8000x128_1_0_0_1_n_n.rhsIdx_val_of_single rfl i q
theorem dc_r1 (i : S8000x128.Idx) (q : dot_S8000x32_S32x128_S8000x128_1_0_0_1_n_n.contr.Idx) : (dot_S8000x32_S32x128_S8000x128_1_0_0_1_n_n.rhsIdx i q 1).val = (i 1).val := by
  unfold DotDims.rhsIdx
  rw [dif_neg (show ¬(1 : Fin S32x128.rank) ∈ dot_S8000x32_S32x128_S8000x128_1_0_0_1_n_n.rhsBatch by decide), dif_pos (show (1 : Fin S32x128.rank) ∈ dot_S8000x32_S32x128_S8000x128_1_0_0_1_n_n.rhsNonContracting by decide)]
  rfl

/-! ## The bodies -/

/-- A tile of input rows times the first layer's weights: entry (p, q) is the sum over k of x (p, k) · w (k, q). -/
theorem pay0_apply (v0 : Vec Ideal S8000x128 .f32) (v2 : Vec Ideal S128x32 .f32) (p : Fin 8000) (q : Fin 32) :
    k0_pay1 (F := Ideal) v0 v2 (ix2 p q) = ∑ k : Fin 128, (v0 (ix2 p k) : EReal) * (v2 (ix2 k q) : EReal) := by
  unfold k0_pay1
  exact Cert.PlainDot.matmul_zero_apply dot_S8000x128_S128x32_S8000x32_1_0_0_1_n_n rfl rfl da_l0 da_l1 da_r0 da_r1 none _ _ p q

/-- A tile of hidden rows times a hidden layer's weights (the second layer's body). -/
theorem pay2_apply (v0 : Vec Ideal S8000x32 .f32) (v3 : Vec Ideal S32x32 .f32) (p : Fin 8000) (q : Fin 32) :
    k2_pay1 (F := Ideal) v0 v3 (ix2 p q) = ∑ k : Fin 32, (v0 (ix2 p k) : EReal) * (v3 (ix2 k q) : EReal) := by
  unfold k2_pay1
  simp only [shapeCast_self]
  exact Cert.PlainDot.matmul_zero_apply dot_S8000x32_S32x32_S8000x32_1_0_0_1_n_n rfl rfl db_l0 db_l1 db_r0 db_r1 none _ _ p q

/-- The same body, as the third layer runs it. -/
theorem pay4_apply (v0 : Vec Ideal S8000x32 .f32) (v3 : Vec Ideal S32x32 .f32) (p : Fin 8000) (q : Fin 32) :
    k4_pay1 (F := Ideal) v0 v3 (ix2 p q) = ∑ k : Fin 32, (v0 (ix2 p k) : EReal) * (v3 (ix2 k q) : EReal) := by
  unfold k4_pay1
  simp only [shapeCast_self]
  exact Cert.PlainDot.matmul_zero_apply dot_S8000x32_S32x32_S8000x32_1_0_0_1_n_n rfl rfl db_l0 db_l1 db_r0 db_r1 none _ _ p q

/-- The bias row added to every row of the tile, then the logistic function (the first layer's activation). -/
theorem pay1_apply (v0 : Vec Ideal S8000x32 .f32) (v2 : Vec Ideal S1x32 .f32) (p : Fin 8000) (q : Fin 32) :
    k1_pay1 (F := Ideal) v0 v2 (ix2 p q) = Ideal.logistic ((v0 (ix2 p q) : EReal) + (v2 (ix2 (0 : Fin 1) q) : EReal)) := by
  unfold k1_pay1
  simp only [shapeCast_self]
  show Ideal.logistic ((v0 (ix2 p q) : EReal) + broadcastTo S8000x32 v2 broadcasts_S1x32_S8000x32 (ix2 p q)) = _
  rw [broadcastTo_1b_ab_apply v2 broadcasts_S1x32_S8000x32 p q]

/-- The same body, as the second layer runs it. -/
theorem pay3_apply (v0 : Vec Ideal S8000x32 .f32) (v2 : Vec Ideal S1x32 .f32) (p : Fin 8000) (q : Fin 32) :
    k3_pay1 (F := Ideal) v0 v2 (ix2 p q) = Ideal.logistic ((v0 (ix2 p q) : EReal) + (v2 (ix2 (0 : Fin 1) q) : EReal)) := by
  unfold k3_pay1
  simp only [shapeCast_self]
  show Ideal.logistic ((v0 (ix2 p q) : EReal) + broadcastTo S8000x32 v2 broadcasts_S1x32_S8000x32 (ix2 p q)) = _
  rw [broadcastTo_1b_ab_apply v2 broadcasts_S1x32_S8000x32 p q]

/-- The bias row added to every row of the tile, nothing after it (the third layer has no activation). -/
theorem pay5_apply (v0 : Vec Ideal S8000x32 .f32) (v2 : Vec Ideal S1x32 .f32) (p : Fin 8000) (q : Fin 32) :
    k5_pay1 (F := Ideal) v0 v2 (ix2 p q) = (v0 (ix2 p q) : EReal) + (v2 (ix2 (0 : Fin 1) q) : EReal) := by
  unfold k5_pay1
  simp only [shapeCast_self]
  show (v0 (ix2 p q) : EReal) + broadcastTo S8000x32 v2 broadcasts_S1x32_S8000x32 (ix2 p q) = _
  rw [broadcastTo_1b_ab_apply v2 broadcasts_S1x32_S8000x32 p q]

/-- The output head: rows times weights, plus the bias row, through the logistic function. -/
theorem pay6_apply (v0 : Vec Ideal S8000x32 .f32) (v3 : Vec Ideal S32x128 .f32) (v6 : Vec Ideal S1x128 .f32) (p : Fin 8000) (q : Fin 128) :
    k6_pay1 (F := Ideal) v0 v3 v6 (ix2 p q)
      = Ideal.logistic ((∑ k : Fin 32, (v0 (ix2 p k) : EReal) * (v3 (ix2 k q) : EReal)) + (v6 (ix2 (0 : Fin 1) q) : EReal)) := by
  unfold k6_pay1
  simp only [shapeCast_self]
  show Ideal.logistic ((FloatOps.matmul (F := Ideal) dot_S8000x32_S32x128_S8000x128_1_0_0_1_n_n none (truncf (F := Ideal) (φ := .f32) .bf16 v0 bitsLt_bf16_f32)
      (truncf (F := Ideal) (φ := .f32) .bf16 v3 bitsLt_bf16_f32) (constant (F := Ideal) S8000x128 .f32 0x00000000#32) (ix2 p q) : EReal)
      + broadcastTo S8000x128 v6 broadcasts_S1x128_S8000x128 (ix2 p q)) = _
  rw [broadcastTo_1b_ab_apply v6 broadcasts_S1x128_S8000x128 p q,
    Cert.PlainDot.matmul_zero_apply dot_S8000x32_S32x128_S8000x128_1_0_0_1_n_n rfl rfl dc_l0 dc_l1 dc_r0 dc_r1 none _ _ p q]
  rfl

end Cert.KernelIdeal.Bodies

end
-- ==== Proof.LibLayerOps.lean ====
/-
  Layers of a network as functions of whole arrays, entry by entry, on the extended reals, for any extents.

  `rowsDot x w`: rows of x against columns of w, entry (r, q) the sum over k of x (r, k) · w (k, q).
  `addRow a b` / `addVec a b`: a bias, given as a one-row matrix or as a vector, added to every row of a
  (`addRow_shapeCast`: the vector laid out as a row is the same thing). `sigm a`: the logistic function of every entry.
  `ofBits_one`: the float 1.0 denotes 1. `logistic_host`: the host's spelling 1.0 / (1.0 + exp (-z)) of the logistic
  function, in the host's divide, add, exponential and negate, is the logistic function the vector unit's one
  operation denotes. Each function comes with its value at an entry `ix2 r q` (`…_apply`, by `rfl`), and `row`, `col`,
  `eq_row_col` split an entry of an [n0, n1] array into coordinates of literal `Fin` types.
-/
import Idealize.ShloMosaic.Lib.ValueIdx
import Idealize.ShloMosaic.Lib.ValueLayout
import Idealize.ShloMosaic.PureOps.Ideal

noncomputable section

open scoped BigOperators

namespace Cert.LayerOps

open Idealize.ShloMosaic Idealize.ShloMosaic.ValueIdx

/-- The row coordinate of an entry of an [n0, n1] array, as a number below n0. -/
abbrev row {n0 n1 : Nat} (i : (⟨2, ![n0, n1]⟩ : Shape).Idx) : Fin n0 := ⟨(i 0).val, idx2_lt0 i⟩
/-- The column coordinate of an entry of an [n0, n1] array, as a number below n1. -/
abbrev col {n0 n1 : Nat} (i : (⟨2, ![n0, n1]⟩ : Shape).Idx) : Fin n1 := ⟨(i 1).val, idx2_lt1 i⟩

theorem eq_row_col {n0 n1 : Nat} (i : (⟨2, ![n0, n1]⟩ : Shape).Idx) : i = ix2 (row i) (col i) := eq_ix2 i

/-- Entry (r, q) of x · w is the sum over k of x (r, k) · w (k, q). -/
def rowsDot {n K M : Nat} (x : (⟨2, ![n, K]⟩ : Shape).Idx → EReal) (w : (⟨2, ![K, M]⟩ : Shape).Idx → EReal) :
    (⟨2, ![n, M]⟩ : Shape).Idx → EReal :=
  fun i => ∑ k : Fin K, x (ix2 (row i) k) * w (ix2 k (col i))

theorem rowsDot_apply {n K M : Nat} (x : (⟨2, ![n, K]⟩ : Shape).Idx → EReal) (w : (⟨2, ![K, M]⟩ : Shape).Idx → EReal)
    (r : Fin n) (q : Fin M) : rowsDot x w (ix2 r q) = ∑ k : Fin K, x (ix2 r k) * w (ix2 k q) := rfl

/-- Entry (r, q) of a with the bias row b added to every row is a (r, q) + b (0, q). -/
def addRow {n M : Nat} (a : (⟨2, ![n, M]⟩ : Shape).Idx → EReal) (b : (⟨2, ![1, M]⟩ : Shape).Idx → EReal) :
    (⟨2, ![n, M]⟩ : Shape).Idx → EReal :=
  fun i => a i + b (ix2 (0 : Fin 1) (col i))

theorem addRow_apply {n M : Nat} (a : (⟨2, ![n, M]⟩ : Shape).Idx → EReal) (b : (⟨2, ![1, M]⟩ : Shape).Idx → EReal)
    (r : Fin n) (q : Fin M) : addRow a b (ix2 r q) = a (ix2 r q) + b (ix2 (0 : Fin 1) q) := rfl

/-- Entry (r, q) of a with the bias vector b added to every row is a (r, q) + b (q). -/
def addVec {n M : Nat} (a : (⟨2, ![n, M]⟩ : Shape).Idx → EReal) (b : (⟨1, ![M]⟩ : Shape).Idx → EReal) :
    (⟨2, ![n, M]⟩ : Shape).Idx → EReal :=
  fun i => a i + b (ix1 (col i))

theorem addVec_apply {n M : Nat} (a : (⟨2, ![n, M]⟩ : Shape).Idx → EReal) (b : (⟨1, ![M]⟩ : Shape).Idx → EReal)
    (r : Fin n) (q : Fin M) : addVec a b (ix2 r q) = a (ix2 r q) + b (ix1 q) := rfl

/-- A bias vector laid out as a one-row matrix and added as a row is the vector added to every row. -/
theorem addRow_shapeCast {n M : Nat} (a : (⟨2, ![n, M]⟩ : Shape).Idx → EReal) (b : (⟨1, ![M]⟩ : Shape).Idx → EReal)
    (h : (⟨1, ![M]⟩ : Shape).ShapeCasts ⟨2, ![1, M]⟩) : addRow a (shapeCast ⟨2, ![1, M]⟩ b h) = addVec a b := by
  funext i
  show a i + shapeCast ⟨2, ![1, M]⟩ b h (ix2 (0 : Fin 1) (col i)) = a i + b (ix1 (col i))
  rw [shapeCast_a_1a_apply]

/-- The logistic function 1 / (1 + e^(-x)) of every entry. -/
def sigm {s : Shape} (a : s.Idx → EReal) : s.Idx → EReal := fun i => Ideal.logistic (a i)

theorem sigm_apply {s : Shape} (a : s.Idx → EReal) (i : s.Idx) : sigm a i = Ideal.logistic (a i) := rfl

/-- The float 1.0 denotes the number 1. -/
theorem ofBits_one : Ideal.ofBits .f32 0x3F800000#32 = 1 := by
  simp [Ideal.ofBits, Ideal.ieee, -EReal.coe_mul]; norm_num

/-- The host's spelling of the logistic function, 1.0 / (1.0 + exp (-z)), is the logistic function. -/
theorem logistic_host (z : EReal) :
    FloatOps.hostDivf (F := Ideal) (φ := .f32) (Ideal.ofBits .f32 0x3F800000#32)
        (FloatOps.addf (F := Ideal) (φ := .f32) (Ideal.ofBits .f32 0x3F800000#32) (FloatOps.hostUnary (F := Ideal) (φ := .f32) .exp (FloatOps.hostNegf (F := Ideal) (φ := .f32) z)))
      = Ideal.logistic z := by
  rw [ofBits_one]; rfl

end Cert.LayerOps

end
-- ==== Proof.Tile0.lean ====
/-
  Region 0, whole: the node features times the first layer's weights.

  The grid has 25 points; point t reads rows 8000 t … 8000 t + 7999 of the row array and the whole weight matrix, and
  writes the same rows of the result. Each written tile is the tile's rows times the weights, so the 25 tiles together
  are the whole product, entry (r, q) the sum over k of x (r, k) · w (k, q).
-/
import proofs.«128537_j40252433498207_1_alg».proof.Proof.Gen.KernelIdeal.Frame
import proofs.«128537_j40252433498207_1_alg».proof.Proof.Bodies
import proofs.«128537_j40252433498207_1_alg».proof.Proof.LibLayerOps
import Idealize.ShloMosaic.Lib.Pipeline.Value
import Idealize.ShloMosaic.Lib.Tactic

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelIdeal.Tile0

open Cert.KernelIdeal Cert.KernelIdeal.Gen Cert.LayerOps

variable (V : (c : Dev nD) → (b : Ref sig .tc) → Buf (Elt Ideal) ((c : Thread nD τ).loc b))

theorem hz : (![0, 0] : Fin 2 → Nat) = fun _ => 0 := funext fun a => by fin_cases a <;> rfl

/-- The three windows' block indices at every grid point: the row windows sit at block t, the weights at block 0. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row window's block at point t is rows 8000 t + p of the row array. -/
theorem rows_apply (c : Dev nD) (t : Fin cfg0.N) (p : Fin 8000) (j : Fin 128) (r : Fin 200000) (hr : r.val = t.val * 8000 + p.val) :
    (iblk0 V c 0 t : Vec Ideal S8000x128 .f32) (ix2 p j) = (V c main_arg0 : S200000x128.Idx → EReal) (ix2 r j) := by
  obtain ⟨e0, e1, -⟩ := idx t
  unfold iblk0
  rw [View.read_apply]
  show (V c main_arg0 : S200000x128.Idx → EReal) _ = (V c main_arg0 : S200000x128.Idx → EReal) _
  refine congrArg _ (funext fun a => Fin.ext ?_)
  match a with
  | ⟨0, _⟩ => show win0_0.index t (0 : Fin 2) * 8000 + 1 * p.val = r.val; rw [e0, hr]; omega
  | ⟨1, _⟩ => show win0_0.index t (1 : Fin 2) * 128 + 1 * j.val = j.val; rw [e1]; omega

/-- The weight window's block at every point is the whole weight matrix. -/
theorem weights_apply (c : Dev nD) (t : Fin cfg0.N) (j : Fin 128) (q : Fin 32) :
    (iblk0 V c 1 t : Vec Ideal S128x32 .f32) (ix2 j q) = (V c main_arg2 : S128x32.Idx → EReal) (ix2 j q) := by
  obtain ⟨-, -, e2, e3, -⟩ := idx t
  unfold iblk0
  rw [View.read_apply]
  show (V c main_arg2 : S128x32.Idx → EReal) _ = (V c main_arg2 : S128x32.Idx → EReal) _
  refine congrArg _ (funext fun a => Fin.ext ?_)
  match a with
  | ⟨0, _⟩ => show win0_1.index t (0 : Fin 2) * 128 + 1 * j.val = j.val; rw [e2]; omega
  | ⟨1, _⟩ => show win0_1.index t (1 : Fin 2) * 32 + 1 * q.val = q.val; rw [e3]; omega

/-- What point t writes back is tile t of the whole product. -/
theorem flushed (c : Dev nD) (t : Fin cfg0.N) :
    (dat0 V c).flushed 2 t = ((cfg0.win 2).blk t).view.read (Elt Ideal) (rowsDot (V c main_arg0 : S200000x128.Idx → EReal) (V c main_arg2 : S128x32.Idx → EReal)) := by
  have hN : cfg0.N = 25 := N_0
  have ht : t.val < 25 := hN ▸ t.isLt
  obtain ⟨-, -, -, -, e4, e5⟩ := idx t
  show (cfg0.win 2).cut (grid0.coords t) ((dat0 V c).after 2 t) = _
  rw [after0_2]
  unfold out0_2
  rw [View.canon_unit_zero hz]
  simp only [View.ld_unit_zero (S := S8000x128) hz, View.ld_unit_zero (S := S128x32) hz]
  funext y
  obtain ⟨p, q, rfl⟩ : ∃ (p : Fin 8000) (q : Fin 32), y = ix2 p q := ⟨y 0, y 1, eq_ix2 y⟩
  have hemb : ((cfg0.win 2).blk t).view.emb (ix2 p q) = (ix2 (⟨t.val * 8000 + p.val, by omega⟩ : Fin 200000) q : S200000x32.Idx) := by
    funext a; apply Fin.ext
    match a with
    | ⟨0, _⟩ => show win0_2.index t (0 : Fin 2) * 8000 + 1 * p.val = t.val * 8000 + p.val; rw [e4]; omega
    | ⟨1, _⟩ => show win0_2.index t (1 : Fin 2) * 32 + 1 * q.val = q.val; rw [e5]; omega
  rw [View.read_apply, hemb]
  show k0_pay1 (iblk0 V c 0 t) (iblk0 V c 1 t) (ix2 p q) = rowsDot (V c main_arg0 : S200000x128.Idx → EReal) (V c main_arg2 : S128x32.Idx → EReal) (ix2 (⟨t.val * 8000 + p.val, by omega⟩ : Fin 200000) q)
  refine (Bodies.pay0_apply (iblk0 V c 0 t) (iblk0 V c 1 t) p q).trans ?_
  rw [rowsDot_apply]
  refine Finset.sum_congr rfl fun j _ => ?_
  rw [rows_apply V c t p j ⟨t.val * 8000 + p.val, by omega⟩ rfl, weights_apply V c t j q]

/-- Every entry of the result lies in the tile of the point its row falls in. -/
theorem cover (c : Dev nD) (i : S200000x32.Idx) :
    ∃ t : Fin cfg0.N, (cfg0.win 2).flush t = true ∧ i ∈ ((cfg0.win 2).blk t).view.set := by
  have hN : cfg0.N = 25 := N_0
  have hi0 : (i 0).val < 200000 := (i 0).isLt
  have hi1 : (i 1).val < 32 := (i 1).isLt
  have hlt : (i 0).val / 8000 < cfg0.N := by rw [hN]; omega
  obtain ⟨-, -, -, -, e4, e5⟩ := idx ⟨(i 0).val / 8000, hlt⟩
  refine ⟨⟨(i 0).val / 8000, hlt⟩, flush0_2 _, ?_⟩
  show i ∈ ((View.whole main_v30).slice (win0_2.rect ⟨(i 0).val / 8000, hlt⟩)).set
  rw [View.set_slice_whole, Rect.mem_set_unit]
  intro a
  match a with
  | ⟨0, _⟩ =>
    show win0_2.index ⟨(i 0).val / 8000, hlt⟩ (0 : Fin 2) * 8000 ≤ (i 0).val ∧ (i 0).val < win0_2.index ⟨(i 0).val / 8000, hlt⟩ (0 : Fin 2) * 8000 + 8000
    rw [e4]; show (i 0).val / 8000 * 8000 ≤ (i 0).val ∧ (i 0).val < (i 0).val / 8000 * 8000 + 8000; omega
  | ⟨1, _⟩ =>
    show win0_2.index ⟨(i 0).val / 8000, hlt⟩ (1 : Fin 2) * 32 ≤ (i 1).val ∧ (i 1).val < win0_2.index ⟨(i 0).val / 8000, hlt⟩ (1 : Fin 2) * 32 + 32
    rw [e5]; omega

/-- The result array after the region: the whole product of the row array as the region found it with the weights. -/
theorem final (c : Dev nD) :
    (dat0 V c).arrAt 2 cfg0.N = rowsDot (V c main_arg0 : S200000x128.Idx → EReal) (V c main_arg2 : S128x32.Idx → EReal) :=
  (dat0 V c).arrAt_eq_of_cover 2 _ (fun t _ => flushed V c t) (cover c)

end Cert.KernelIdeal.Tile0

end
-- ==== Proof.Tile1.lean ====
/-
  Region 1, whole: the first layer's activation, logistic (agg + b).

  The grid has 25 points; point t reads rows 8000 t … 8000 t + 7999 of the aggregated array and the one bias row, and
  writes the same rows of the result: entry (r, q) is the logistic function of a (r, q) + b (0, q).
-/
import proofs.«128537_j40252433498207_1_alg».proof.Proof.Gen.KernelIdeal.Frame
import proofs.«128537_j40252433498207_1_alg».proof.Proof.Bodies
import proofs.«128537_j40252433498207_1_alg».proof.Proof.LibLayerOps
import Idealize.ShloMosaic.Lib.Pipeline.Value
import Idealize.ShloMosaic.Lib.Tactic

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelIdeal.Tile1

open Cert.KernelIdeal Cert.KernelIdeal.Gen Cert.LayerOps

variable (V : (c : Dev nD) → (b : Ref sig .tc) → Buf (Elt Ideal) ((c : Thread nD τ).loc b))

theorem hz : (![0, 0] : Fin 2 → Nat) = fun _ => 0 := funext fun a => by fin_cases a <;> rfl

/-- The three windows' block indices at every grid point: the row windows sit at block t, the bias row at block 0. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The row window's block at point t is rows 8000 t + p of the aggregated array. -/
theorem rows_apply (c : Dev nD) (t : Fin cfg1.N) (p : Fin 8000) (q : Fin 32) (r : Fin 200000) (hr : r.val = t.val * 8000 + p.val) :
    (iblk1 V c 0 t : Vec Ideal S8000x32 .f32) (ix2 p q) = (V c main_v43 : S200000x32.Idx → EReal) (ix2 r q) := by
  obtain ⟨e0, e1, -⟩ := idx t
  unfold iblk1
  rw [View.read_apply]
  show (V c main_v43 : S200000x32.Idx → EReal) _ = (V c main_v43 : S200000x32.Idx → EReal) _
  refine congrArg _ (funext fun ax => Fin.ext ?_)
  match ax with
  | ⟨0, _⟩ => show win1_0.index t (0 : Fin 2) * 8000 + 1 * p.val = r.val; rw [e0, hr]; omega
  | ⟨1, _⟩ => show win1_0.index t (1 : Fin 2) * 32 + 1 * q.val = q.val; rw [e1]; omega

/-- The bias window's block at every point is the one bias row. -/
theorem bias_apply (c : Dev nD) (t : Fin cfg1.N) (q : Fin 32) :
    (iblk1 V c 1 t : Vec Ideal S1x32 .f32) (ix2 (0 : Fin 1) q) = (V c main_v44 : S1x32.Idx → EReal) (ix2 (0 : Fin 1) q) := by
  obtain ⟨-, -, e2, e3, -⟩ := idx t
  unfold iblk1
  rw [View.read_apply]
  show (V c main_v44 : S1x32.Idx → EReal) _ = (V c main_v44 : S1x32.Idx → EReal) _
  refine congrArg _ (funext fun ax => Fin.ext ?_)
  match ax with
  | ⟨0, _⟩ => show win1_1.index t (0 : Fin 2) * 1 + 1 * 0 = 0; rw [e2]
  | ⟨1, _⟩ => show win1_1.index t (1 : Fin 2) * 32 + 1 * q.val = q.val; rw [e3]; omega

/-- What point t writes back is tile t of the whole result. -/
theorem flushed (c : Dev nD) (t : Fin cfg1.N) :
    (dat1 V c).flushed 2 t = ((cfg1.win 2).blk t).view.read (Elt Ideal) (sigm (addRow (V c main_v43 : S200000x32.Idx → EReal) (V c main_v44 : S1x32.Idx → EReal))) := by
  have hN : cfg1.N = 25 := N_1
  have ht : t.val < 25 := hN ▸ t.isLt
  obtain ⟨-, -, -, -, e4, e5⟩ := idx t
  show (cfg1.win 2).cut (grid1.coords t) ((dat1 V c).after 2 t) = _
  rw [after1_2]
  unfold out1_2
  rw [View.canon_unit_zero hz]
  simp only [View.ld_unit_zero (S := S8000x32) hz, View.ld_unit_zero (S := S1x32) hz]
  funext y
  obtain ⟨p, q, rfl⟩ : ∃ (p : Fin 8000) (q : Fin 32), y = ix2 p q := ⟨y 0, y 1, eq_ix2 y⟩
  have hemb : ((cfg1.win 2).blk t).view.emb (ix2 p q) = (ix2 (⟨t.val * 8000 + p.val, by omega⟩ : Fin 200000) q : S200000x32.Idx) := by
    funext ax; apply Fin.ext
    match ax with
    | ⟨0, _⟩ => show win1_2.index t (0 : Fin 2) * 8000 + 1 * p.val = t.val * 8000 + p.val; rw [e4]; omega
    | ⟨1, _⟩ => show win1_2.index t (1 : Fin 2) * 32 + 1 * q.val = q.val; rw [e5]; omega
  rw [View.read_apply, hemb]
  show k1_pay1 (iblk1 V c 0 t) (iblk1 V c 1 t) (ix2 p q) = (sigm (addRow (V c main_v43 : S200000x32.Idx → EReal) (V c main_v44 : S1x32.Idx → EReal))) (ix2 (⟨t.val * 8000 + p.val, by omega⟩ : Fin 200000) q)
  refine (Bodies.pay1_apply (iblk1 V c 0 t) (iblk1 V c 1 t) p q).trans ?_
  rw [sigm_apply, addRow_apply, rows_apply V c t p q ⟨t.val * 8000 + p.val, by omega⟩ rfl, bias_apply V c t q]

/-- Every entry of the result lies in the tile of the point its row falls in. -/
theorem cover (c : Dev nD) (i : S200000x32.Idx) :
    ∃ t : Fin cfg1.N, (cfg1.win 2).flush t = true ∧ i ∈ ((cfg1.win 2).blk t).view.set := by
  have hN : cfg1.N = 25 := N_1
  have hi0 : (i 0).val < 200000 := (i 0).isLt
  have hi1 : (i 1).val < 32 := (i 1).isLt
  have hlt : (i 0).val / 8000 < cfg1.N := by rw [hN]; omega
  obtain ⟨-, -, -, -, e4, e5⟩ := idx ⟨(i 0).val / 8000, hlt⟩
  refine ⟨⟨(i 0).val / 8000, hlt⟩, flush1_2 _, ?_⟩
  show i ∈ ((View.whole main_v45).slice (win1_2.rect ⟨(i 0).val / 8000, hlt⟩)).set
  rw [View.set_slice_whole, Rect.mem_set_unit]
  intro ax
  match ax with
  | ⟨0, _⟩ =>
    show win1_2.index ⟨(i 0).val / 8000, hlt⟩ (0 : Fin 2) * 8000 ≤ (i 0).val ∧ (i 0).val < win1_2.index ⟨(i 0).val / 8000, hlt⟩ (0 : Fin 2) * 8000 + 8000
    rw [e4]; show (i 0).val / 8000 * 8000 ≤ (i 0).val ∧ (i 0).val < (i 0).val / 8000 * 8000 + 8000; omega
  | ⟨1, _⟩ =>
    show win1_2.index ⟨(i 0).val / 8000, hlt⟩ (1 : Fin 2) * 32 ≤ (i 1).val ∧ (i 1).val < win1_2.index ⟨(i 0).val / 8000, hlt⟩ (1 : Fin 2) * 32 + 32
    rw [e5]; omega

/-- The result array after the region, as one function of the two arrays the region found. -/
theorem final (c : Dev nD) :
    (dat1 V c).arrAt 2 cfg1.N = sigm (addRow (V c main_v43 : S200000x32.Idx → EReal) (V c main_v44 : S1x32.Idx → EReal)) :=
  (dat1 V c).arrAt_eq_of_cover 2 _ (fun t _ => flushed V c t) (cover c)

end Cert.KernelIdeal.Tile1

end
-- ==== Proof.Tile2.lean ====
/-
  Region 2, whole: the first hidden array times the second layer's weights.

  The grid has 25 points; point t reads rows 8000 t … 8000 t + 7999 of the row array and the whole weight matrix, and
  writes the same rows of the result. Each written tile is the tile's rows times the weights, so the 25 tiles together
  are the whole product, entry (r, q) the sum over k of x (r, k) · w (k, q).
-/
import proofs.«128537_j40252433498207_1_alg».proof.Proof.Gen.KernelIdeal.Frame
import proofs.«128537_j40252433498207_1_alg».proof.Proof.Bodies
import proofs.«128537_j40252433498207_1_alg».proof.Proof.LibLayerOps
import Idealize.ShloMosaic.Lib.Pipeline.Value
import Idealize.ShloMosaic.Lib.Tactic

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelIdeal.Tile2

open Cert.KernelIdeal Cert.KernelIdeal.Gen Cert.LayerOps

variable (V : (c : Dev nD) → (b : Ref sig .tc) → Buf (Elt Ideal) ((c : Thread nD τ).loc b))

theorem hz : (![0, 0] : Fin 2 → Nat) = fun _ => 0 := funext fun a => by fin_cases a <;> rfl

/-- The three windows' block indices at every grid point: the row windows sit at block t, the weights at block 0. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The row window's block at point t is rows 8000 t + p of the row array. -/
theorem rows_apply (c : Dev nD) (t : Fin cfg2.N) (p : Fin 8000) (j : Fin 32) (r : Fin 200000) (hr : r.val = t.val * 8000 + p.val) :
    (iblk2 V c 0 t : Vec Ideal S8000x32 .f32) (ix2 p j) = (V c main_v45 : S200000x32.Idx → EReal) (ix2 r j) := by
  obtain ⟨e0, e1, -⟩ := idx t
  unfold iblk2
  rw [View.read_apply]
  show (V c main_v45 : S200000x32.Idx → EReal) _ = (V c main_v45 : S200000x32.Idx → EReal) _
  refine congrArg _ (funext fun a => Fin.ext ?_)
  match a with
  | ⟨0, _⟩ => show win2_0.index t (0 : Fin 2) * 8000 + 1 * p.val = r.val; rw [e0, hr]; omega
  | ⟨1, _⟩ => show win2_0.index t (1 : Fin 2) * 32 + 1 * j.val = j.val; rw [e1]; omega

/-- The weight window's block at every point is the whole weight matrix. -/
theorem weights_apply (c : Dev nD) (t : Fin cfg2.N) (j : Fin 32) (q : Fin 32) :
    (iblk2 V c 1 t : Vec Ideal S32x32 .f32) (ix2 j q) = (V c main_arg4 : S32x32.Idx → EReal) (ix2 j q) := by
  obtain ⟨-, -, e2, e3, -⟩ := idx t
  unfold iblk2
  rw [View.read_apply]
  show (V c main_arg4 : S32x32.Idx → EReal) _ = (V c main_arg4 : S32x32.Idx → EReal) _
  refine congrArg _ (funext fun a => Fin.ext ?_)
  match a with
  | ⟨0, _⟩ => show win2_1.index t (0 : Fin 2) * 32 + 1 * j.val = j.val; rw [e2]; omega
  | ⟨1, _⟩ => show win2_1.index t (1 : Fin 2) * 32 + 1 * q.val = q.val; rw [e3]; omega

/-- What point t writes back is tile t of the whole product. -/
theorem flushed (c : Dev nD) (t : Fin cfg2.N) :
    (dat2 V c).flushed 2 t = ((cfg2.win 2).blk t).view.read (Elt Ideal) (rowsDot (V c main_v45 : S200000x32.Idx → EReal) (V c main_arg4 : S32x32.Idx → EReal)) := by
  have hN : cfg2.N = 25 := N_2
  have ht : t.val < 25 := hN ▸ t.isLt
  obtain ⟨-, -, -, -, e4, e5⟩ := idx t
  show (cfg2.win 2).cut (grid2.coords t) ((dat2 V c).after 2 t) = _
  rw [after2_2]
  unfold out2_2
  rw [View.canon_unit_zero hz]
  simp only [View.ld_unit_zero (S := S8000x32) hz, View.ld_unit_zero (S := S32x32) hz]
  funext y
  obtain ⟨p, q, rfl⟩ : ∃ (p : Fin 8000) (q : Fin 32), y = ix2 p q := ⟨y 0, y 1, eq_ix2 y⟩
  have hemb : ((cfg2.win 2).blk t).view.emb (ix2 p q) = (ix2 (⟨t.val * 8000 + p.val, by omega⟩ : Fin 200000) q : S200000x32.Idx) := by
    funext a; apply Fin.ext
    match a with
    | ⟨0, _⟩ => show win2_2.index t (0 : Fin 2) * 8000 + 1 * p.val = t.val * 8000 + p.val; rw [e4]; omega
    | ⟨1, _⟩ => show win2_2.index t (1 : Fin 2) * 32 + 1 * q.val = q.val; rw [e5]; omega
  rw [View.read_apply, hemb]
  show k2_pay1 (iblk2 V c 0 t) (iblk2 V c 1 t) (ix2 p q) = rowsDot (V c main_v45 : S200000x32.Idx → EReal) (V c main_arg4 : S32x32.Idx → EReal) (ix2 (⟨t.val * 8000 + p.val, by omega⟩ : Fin 200000) q)
  refine (Bodies.pay2_apply (iblk2 V c 0 t) (iblk2 V c 1 t) p q).trans ?_
  rw [rowsDot_apply]
  refine Finset.sum_congr rfl fun j _ => ?_
  rw [rows_apply V c t p j ⟨t.val * 8000 + p.val, by omega⟩ rfl, weights_apply V c t j q]

/-- Every entry of the result lies in the tile of the point its row falls in. -/
theorem cover (c : Dev nD) (i : S200000x32.Idx) :
    ∃ t : Fin cfg2.N, (cfg2.win 2).flush t = true ∧ i ∈ ((cfg2.win 2).blk t).view.set := by
  have hN : cfg2.N = 25 := N_2
  have hi0 : (i 0).val < 200000 := (i 0).isLt
  have hi1 : (i 1).val < 32 := (i 1).isLt
  have hlt : (i 0).val / 8000 < cfg2.N := by rw [hN]; omega
  obtain ⟨-, -, -, -, e4, e5⟩ := idx ⟨(i 0).val / 8000, hlt⟩
  refine ⟨⟨(i 0).val / 8000, hlt⟩, flush2_2 _, ?_⟩
  show i ∈ ((View.whole main_v46).slice (win2_2.rect ⟨(i 0).val / 8000, hlt⟩)).set
  rw [View.set_slice_whole, Rect.mem_set_unit]
  intro a
  match a with
  | ⟨0, _⟩ =>
    show win2_2.index ⟨(i 0).val / 8000, hlt⟩ (0 : Fin 2) * 8000 ≤ (i 0).val ∧ (i 0).val < win2_2.index ⟨(i 0).val / 8000, hlt⟩ (0 : Fin 2) * 8000 + 8000
    rw [e4]; show (i 0).val / 8000 * 8000 ≤ (i 0).val ∧ (i 0).val < (i 0).val / 8000 * 8000 + 8000; omega
  | ⟨1, _⟩ =>
    show win2_2.index ⟨(i 0).val / 8000, hlt⟩ (1 : Fin 2) * 32 ≤ (i 1).val ∧ (i 1).val < win2_2.index ⟨(i 0).val / 8000, hlt⟩ (1 : Fin 2) * 32 + 32
    rw [e5]; omega

/-- The result array after the region: the whole product of the row array as the region found it with the weights. -/
theorem final (c : Dev nD) :
    (dat2 V c).arrAt 2 cfg2.N = rowsDot (V c main_v45 : S200000x32.Idx → EReal) (V c main_arg4 : S32x32.Idx → EReal) :=
  (dat2 V c).arrAt_eq_of_cover 2 _ (fun t _ => flushed V c t) (cover c)

end Cert.KernelIdeal.Tile2

end
-- ==== Proof.Tile3.lean ====
/-
  Region 3, whole: the second layer's activation, logistic (agg + b).

  The grid has 25 points; point t reads rows 8000 t … 8000 t + 7999 of the aggregated array and the one bias row, and
  writes the same rows of the result: entry (r, q) is the logistic function of a (r, q) + b (0, q).
-/
import proofs.«128537_j40252433498207_1_alg».proof.Proof.Gen.KernelIdeal.Frame
import proofs.«128537_j40252433498207_1_alg».proof.Proof.Bodies
import proofs.«128537_j40252433498207_1_alg».proof.Proof.LibLayerOps
import Idealize.ShloMosaic.Lib.Pipeline.Value
import Idealize.ShloMosaic.Lib.Tactic

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelIdeal.Tile3

open Cert.KernelIdeal Cert.KernelIdeal.Gen Cert.LayerOps

variable (V : (c : Dev nD) → (b : Ref sig .tc) → Buf (Elt Ideal) ((c : Thread nD τ).loc b))

theorem hz : (![0, 0] : Fin 2 → Nat) = fun _ => 0 := funext fun a => by fin_cases a <;> rfl

/-- The three windows' block indices at every grid point: the row windows sit at block t, the bias row at block 0. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The row window's block at point t is rows 8000 t + p of the aggregated array. -/
theorem rows_apply (c : Dev nD) (t : Fin cfg3.N) (p : Fin 8000) (q : Fin 32) (r : Fin 200000) (hr : r.val = t.val * 8000 + p.val) :
    (iblk3 V c 0 t : Vec Ideal S8000x32 .f32) (ix2 p q) = (V c main_v59 : S200000x32.Idx → EReal) (ix2 r q) := by
  obtain ⟨e0, e1, -⟩ := idx t
  unfold iblk3
  rw [View.read_apply]
  show (V c main_v59 : S200000x32.Idx → EReal) _ = (V c main_v59 : S200000x32.Idx → EReal) _
  refine congrArg _ (funext fun ax => Fin.ext ?_)
  match ax with
  | ⟨0, _⟩ => show win3_0.index t (0 : Fin 2) * 8000 + 1 * p.val = r.val; rw [e0, hr]; omega
  | ⟨1, _⟩ => show win3_0.index t (1 : Fin 2) * 32 + 1 * q.val = q.val; rw [e1]; omega

/-- The bias window's block at every point is the one bias row. -/
theorem bias_apply (c : Dev nD) (t : Fin cfg3.N) (q : Fin 32) :
    (iblk3 V c 1 t : Vec Ideal S1x32 .f32) (ix2 (0 : Fin 1) q) = (V c main_v60 : S1x32.Idx → EReal) (ix2 (0 : Fin 1) q) := by
  obtain ⟨-, -, e2, e3, -⟩ := idx t
  unfold iblk3
  rw [View.read_apply]
  show (V c main_v60 : S1x32.Idx → EReal) _ = (V c main_v60 : S1x32.Idx → EReal) _
  refine congrArg _ (funext fun ax => Fin.ext ?_)
  match ax with
  | ⟨0, _⟩ => show win3_1.index t (0 : Fin 2) * 1 + 1 * 0 = 0; rw [e2]
  | ⟨1, _⟩ => show win3_1.index t (1 : Fin 2) * 32 + 1 * q.val = q.val; rw [e3]; omega

/-- What point t writes back is tile t of the whole result. -/
theorem flushed (c : Dev nD) (t : Fin cfg3.N) :
    (dat3 V c).flushed 2 t = ((cfg3.win 2).blk t).view.read (Elt Ideal) (sigm (addRow (V c main_v59 : S200000x32.Idx → EReal) (V c main_v60 : S1x32.Idx → EReal))) := by
  have hN : cfg3.N = 25 := N_3
  have ht : t.val < 25 := hN ▸ t.isLt
  obtain ⟨-, -, -, -, e4, e5⟩ := idx t
  show (cfg3.win 2).cut (grid3.coords t) ((dat3 V c).after 2 t) = _
  rw [after3_2]
  unfold out3_2
  rw [View.canon_unit_zero hz]
  simp only [View.ld_unit_zero (S := S8000x32) hz, View.ld_unit_zero (S := S1x32) hz]
  funext y
  obtain ⟨p, q, rfl⟩ : ∃ (p : Fin 8000) (q : Fin 32), y = ix2 p q := ⟨y 0, y 1, eq_ix2 y⟩
  have hemb : ((cfg3.win 2).blk t).view.emb (ix2 p q) = (ix2 (⟨t.val * 8000 + p.val, by omega⟩ : Fin 200000) q : S200000x32.Idx) := by
    funext ax; apply Fin.ext
    match ax with
    | ⟨0, _⟩ => show win3_2.index t (0 : Fin 2) * 8000 + 1 * p.val = t.val * 8000 + p.val; rw [e4]; omega
    | ⟨1, _⟩ => show win3_2.index t (1 : Fin 2) * 32 + 1 * q.val = q.val; rw [e5]; omega
  rw [View.read_apply, hemb]
  show k3_pay1 (iblk3 V c 0 t) (iblk3 V c 1 t) (ix2 p q) = (sigm (addRow (V c main_v59 : S200000x32.Idx → EReal) (V c main_v60 : S1x32.Idx → EReal))) (ix2 (⟨t.val * 8000 + p.val, by omega⟩ : Fin 200000) q)
  refine (Bodies.pay3_apply (iblk3 V c 0 t) (iblk3 V c 1 t) p q).trans ?_
  rw [sigm_apply, addRow_apply, rows_apply V c t p q ⟨t.val * 8000 + p.val, by omega⟩ rfl, bias_apply V c t q]

/-- Every entry of the result lies in the tile of the point its row falls in. -/
theorem cover (c : Dev nD) (i : S200000x32.Idx) :
    ∃ t : Fin cfg3.N, (cfg3.win 2).flush t = true ∧ i ∈ ((cfg3.win 2).blk t).view.set := by
  have hN : cfg3.N = 25 := N_3
  have hi0 : (i 0).val < 200000 := (i 0).isLt
  have hi1 : (i 1).val < 32 := (i 1).isLt
  have hlt : (i 0).val / 8000 < cfg3.N := by rw [hN]; omega
  obtain ⟨-, -, -, -, e4, e5⟩ := idx ⟨(i 0).val / 8000, hlt⟩
  refine ⟨⟨(i 0).val / 8000, hlt⟩, flush3_2 _, ?_⟩
  show i ∈ ((View.whole main_v61).slice (win3_2.rect ⟨(i 0).val / 8000, hlt⟩)).set
  rw [View.set_slice_whole, Rect.mem_set_unit]
  intro ax
  match ax with
  | ⟨0, _⟩ =>
    show win3_2.index ⟨(i 0).val / 8000, hlt⟩ (0 : Fin 2) * 8000 ≤ (i 0).val ∧ (i 0).val < win3_2.index ⟨(i 0).val / 8000, hlt⟩ (0 : Fin 2) * 8000 + 8000
    rw [e4]; show (i 0).val / 8000 * 8000 ≤ (i 0).val ∧ (i 0).val < (i 0).val / 8000 * 8000 + 8000; omega
  | ⟨1, _⟩ =>
    show win3_2.index ⟨(i 0).val / 8000, hlt⟩ (1 : Fin 2) * 32 ≤ (i 1).val ∧ (i 1).val < win3_2.index ⟨(i 0).val / 8000, hlt⟩ (1 : Fin 2) * 32 + 32
    rw [e5]; omega

/-- The result array after the region, as one function of the two arrays the region found. -/
theorem final (c : Dev nD) :
    (dat3 V c).arrAt 2 cfg3.N = sigm (addRow (V c main_v59 : S200000x32.Idx → EReal) (V c main_v60 : S1x32.Idx → EReal)) :=
  (dat3 V c).arrAt_eq_of_cover 2 _ (fun t _ => flushed V c t) (cover c)

end Cert.KernelIdeal.Tile3

end
-- ==== Proof.Tile4.lean ====
/-
  Region 4, whole: the second hidden array times the third layer's weights.

  The grid has 25 points; point t reads rows 8000 t … 8000 t + 7999 of the row array and the whole weight matrix, and
  writes the same rows of the result. Each written tile is the tile's rows times the weights, so the 25 tiles together
  are the whole product, entry (r, q) the sum over k of x (r, k) · w (k, q).
-/
import proofs.«128537_j40252433498207_1_alg».proof.Proof.Gen.KernelIdeal.Frame
import proofs.«128537_j40252433498207_1_alg».proof.Proof.Bodies
import proofs.«128537_j40252433498207_1_alg».proof.Proof.LibLayerOps
import Idealize.ShloMosaic.Lib.Pipeline.Value
import Idealize.ShloMosaic.Lib.Tactic

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelIdeal.Tile4

open Cert.KernelIdeal Cert.KernelIdeal.Gen Cert.LayerOps

variable (V : (c : Dev nD) → (b : Ref sig .tc) → Buf (Elt Ideal) ((c : Thread nD τ).loc b))

theorem hz : (![0, 0] : Fin 2 → Nat) = fun _ => 0 := funext fun a => by fin_cases a <;> rfl

/-- The three windows' block indices at every grid point: the row windows sit at block t, the weights at block 0. -/
theorem idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The row window's block at point t is rows 8000 t + p of the row array. -/
theorem rows_apply (c : Dev nD) (t : Fin cfg4.N) (p : Fin 8000) (j : Fin 32) (r : Fin 200000) (hr : r.val = t.val * 8000 + p.val) :
    (iblk4 V c 0 t : Vec Ideal S8000x32 .f32) (ix2 p j) = (V c main_v61 : S200000x32.Idx → EReal) (ix2 r j) := by
  obtain ⟨e0, e1, -⟩ := idx t
  unfold iblk4
  rw [View.read_apply]
  show (V c main_v61 : S200000x32.Idx → EReal) _ = (V c main_v61 : S200000x32.Idx → EReal) _
  refine congrArg _ (funext fun a => Fin.ext ?_)
  match a with
  | ⟨0, _⟩ => show win4_0.index t (0 : Fin 2) * 8000 + 1 * p.val = r.val; rw [e0, hr]; omega
  | ⟨1, _⟩ => show win4_0.index t (1 : Fin 2) * 32 + 1 * j.val = j.val; rw [e1]; omega

/-- The weight window's block at every point is the whole weight matrix. -/
theorem weights_apply (c : Dev nD) (t : Fin cfg4.N) (j : Fin 32) (q : Fin 32) :
    (iblk4 V c 1 t : Vec Ideal S32x32 .f32) (ix2 j q) = (V c main_arg6 : S32x32.Idx → EReal) (ix2 j q) := by
  obtain ⟨-, -, e2, e3, -⟩ := idx t
  unfold iblk4
  rw [View.read_apply]
  show (V c main_arg6 : S32x32.Idx → EReal) _ = (V c main_arg6 : S32x32.Idx → EReal) _
  refine congrArg _ (funext fun a => Fin.ext ?_)
  match a with
  | ⟨0, _⟩ => show win4_1.index t (0 : Fin 2) * 32 + 1 * j.val = j.val; rw [e2]; omega
  | ⟨1, _⟩ => show win4_1.index t (1 : Fin 2) * 32 + 1 * q.val = q.val; rw [e3]; omega

/-- What point t writes back is tile t of the whole product. -/
theorem flushed (c : Dev nD) (t : Fin cfg4.N) :
    (dat4 V c).flushed 2 t = ((cfg4.win 2).blk t).view.read (Elt Ideal) (rowsDot (V c main_v61 : S200000x32.Idx → EReal) (V c main_arg6 : S32x32.Idx → EReal)) := by
  have hN : cfg4.N = 25 := N_4
  have ht : t.val < 25 := hN ▸ t.isLt
  obtain ⟨-, -, -, -, e4, e5⟩ := idx t
  show (cfg4.win 2).cut (grid4.coords t) ((dat4 V c).after 2 t) = _
  rw [after4_2]
  unfold out4_2
  rw [View.canon_unit_zero hz]
  simp only [View.ld_unit_zero (S := S8000x32) hz, View.ld_unit_zero (S := S32x32) hz]
  funext y
  obtain ⟨p, q, rfl⟩ : ∃ (p : Fin 8000) (q : Fin 32), y = ix2 p q := ⟨y 0, y 1, eq_ix2 y⟩
  have hemb : ((cfg4.win 2).blk t).view.emb (ix2 p q) = (ix2 (⟨t.val * 8000 + p.val, by omega⟩ : Fin 200000) q : S200000x32.Idx) := by
    funext a; apply Fin.ext
    match a with
    | ⟨0, _⟩ => show win4_2.index t (0 : Fin 2) * 8000 + 1 * p.val = t.val * 8000 + p.val; rw [e4]; omega
    | ⟨1, _⟩ => show win4_2.index t (1 : Fin 2) * 32 + 1 * q.val = q.val; rw [e5]; omega
  rw [View.read_apply, hemb]
  show k4_pay1 (iblk4 V c 0 t) (iblk4 V c 1 t) (ix2 p q) = rowsDot (V c main_v61 : S200000x32.Idx → EReal) (V c main_arg6 : S32x32.Idx → EReal) (ix2 (⟨t.val * 8000 + p.val, by omega⟩ : Fin 200000) q)
  refine (Bodies.pay4_apply (iblk4 V c 0 t) (iblk4 V c 1 t) p q).trans ?_
  rw [rowsDot_apply]
  refine Finset.sum_congr rfl fun j _ => ?_
  rw [rows_apply V c t p j ⟨t.val * 8000 + p.val, by omega⟩ rfl, weights_apply V c t j q]

/-- Every entry of the result lies in the tile of the point its row falls in. -/
theorem cover (c : Dev nD) (i : S200000x32.Idx) :
    ∃ t : Fin cfg4.N, (cfg4.win 2).flush t = true ∧ i ∈ ((cfg4.win 2).blk t).view.set := by
  have hN : cfg4.N = 25 := N_4
  have hi0 : (i 0).val < 200000 := (i 0).isLt
  have hi1 : (i 1).val < 32 := (i 1).isLt
  have hlt : (i 0).val / 8000 < cfg4.N := by rw [hN]; omega
  obtain ⟨-, -, -, -, e4, e5⟩ := idx ⟨(i 0).val / 8000, hlt⟩
  refine ⟨⟨(i 0).val / 8000, hlt⟩, flush4_2 _, ?_⟩
  show i ∈ ((View.whole main_v62).slice (win4_2.rect ⟨(i 0).val / 8000, hlt⟩)).set
  rw [View.set_slice_whole, Rect.mem_set_unit]
  intro a
  match a with
  | ⟨0, _⟩ =>
    show win4_2.index ⟨(i 0).val / 8000, hlt⟩ (0 : Fin 2) * 8000 ≤ (i 0).val ∧ (i 0).val < win4_2.index ⟨(i 0).val / 8000, hlt⟩ (0 : Fin 2) * 8000 + 8000
    rw [e4]; show (i 0).val / 8000 * 8000 ≤ (i 0).val ∧ (i 0).val < (i 0).val / 8000 * 8000 + 8000; omega
  | ⟨1, _⟩ =>
    show win4_2.index ⟨(i 0).val / 8000, hlt⟩ (1 : Fin 2) * 32 ≤ (i 1).val ∧ (i 1).val < win4_2.index ⟨(i 0).val / 8000, hlt⟩ (1 : Fin 2) * 32 + 32
    rw [e5]; omega

/-- The result array after the region: the whole product of the row array as the region found it with the weights. -/
theorem final (c : Dev nD) :
    (dat4 V c).arrAt 2 cfg4.N = rowsDot (V c main_v61 : S200000x32.Idx → EReal) (V c main_arg6 : S32x32.Idx → EReal) :=
  (dat4 V c).arrAt_eq_of_cover 2 _ (fun t _ => flushed V c t) (cover c)

end Cert.KernelIdeal.Tile4

end
-- ==== Proof.Tile5.lean ====
/-
  Region 5, whole: the third layer's bias, agg + b, with no activation.

  The grid has 25 points; point t reads rows 8000 t … 8000 t + 7999 of the aggregated array and the one bias row, and
  writes the same rows of the result: entry (r, q) is a (r, q) + b (0, q).
-/
import proofs.«128537_j40252433498207_1_alg».proof.Proof.Gen.KernelIdeal.Frame
import proofs.«128537_j40252433498207_1_alg».proof.Proof.Bodies
import proofs.«128537_j40252433498207_1_alg».proof.Proof.LibLayerOps
import Idealize.ShloMosaic.Lib.Pipeline.Value
import Idealize.ShloMosaic.Lib.Tactic

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelIdeal.Tile5

open Cert.KernelIdeal Cert.KernelIdeal.Gen Cert.LayerOps

variable (V : (c : Dev nD) → (b : Ref sig .tc) → Buf (Elt Ideal) ((c : Thread nD τ).loc b))

theorem hz : (![0, 0] : Fin 2 → Nat) = fun _ => 0 := funext fun a => by fin_cases a <;> rfl

/-- The three windows' block indices at every grid point: the row windows sit at block t, the bias row at block 0. -/
theorem idx : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The row window's block at point t is rows 8000 t + p of the aggregated array. -/
theorem rows_apply (c : Dev nD) (t : Fin cfg5.N) (p : Fin 8000) (q : Fin 32) (r : Fin 200000) (hr : r.val = t.val * 8000 + p.val) :
    (iblk5 V c 0 t : Vec Ideal S8000x32 .f32) (ix2 p q) = (V c main_v75 : S200000x32.Idx → EReal) (ix2 r q) := by
  obtain ⟨e0, e1, -⟩ := idx t
  unfold iblk5
  rw [View.read_apply]
  show (V c main_v75 : S200000x32.Idx → EReal) _ = (V c main_v75 : S200000x32.Idx → EReal) _
  refine congrArg _ (funext fun ax => Fin.ext ?_)
  match ax with
  | ⟨0, _⟩ => show win5_0.index t (0 : Fin 2) * 8000 + 1 * p.val = r.val; rw [e0, hr]; omega
  | ⟨1, _⟩ => show win5_0.index t (1 : Fin 2) * 32 + 1 * q.val = q.val; rw [e1]; omega

/-- The bias window's block at every point is the one bias row. -/
theorem bias_apply (c : Dev nD) (t : Fin cfg5.N) (q : Fin 32) :
    (iblk5 V c 1 t : Vec Ideal S1x32 .f32) (ix2 (0 : Fin 1) q) = (V c main_v76 : S1x32.Idx → EReal) (ix2 (0 : Fin 1) q) := by
  obtain ⟨-, -, e2, e3, -⟩ := idx t
  unfold iblk5
  rw [View.read_apply]
  show (V c main_v76 : S1x32.Idx → EReal) _ = (V c main_v76 : S1x32.Idx → EReal) _
  refine congrArg _ (funext fun ax => Fin.ext ?_)
  match ax with
  | ⟨0, _⟩ => show win5_1.index t (0 : Fin 2) * 1 + 1 * 0 = 0; rw [e2]
  | ⟨1, _⟩ => show win5_1.index t (1 : Fin 2) * 32 + 1 * q.val = q.val; rw [e3]; omega

/-- What point t writes back is tile t of the whole result. -/
theorem flushed (c : Dev nD) (t : Fin cfg5.N) :
    (dat5 V c).flushed 2 t = ((cfg5.win 2).blk t).view.read (Elt Ideal) (addRow (V c main_v75 : S200000x32.Idx → EReal) (V c main_v76 : S1x32.Idx → EReal)) := by
  have hN : cfg5.N = 25 := N_5
  have ht : t.val < 25 := hN ▸ t.isLt
  obtain ⟨-, -, -, -, e4, e5⟩ := idx t
  show (cfg5.win 2).cut (grid5.coords t) ((dat5 V c).after 2 t) = _
  rw [after5_2]
  unfold out5_2
  rw [View.canon_unit_zero hz]
  simp only [View.ld_unit_zero (S := S8000x32) hz, View.ld_unit_zero (S := S1x32) hz]
  funext y
  obtain ⟨p, q, rfl⟩ : ∃ (p : Fin 8000) (q : Fin 32), y = ix2 p q := ⟨y 0, y 1, eq_ix2 y⟩
  have hemb : ((cfg5.win 2).blk t).view.emb (ix2 p q) = (ix2 (⟨t.val * 8000 + p.val, by omega⟩ : Fin 200000) q : S200000x32.Idx) := by
    funext ax; apply Fin.ext
    match ax with
    | ⟨0, _⟩ => show win5_2.index t (0 : Fin 2) * 8000 + 1 * p.val = t.val * 8000 + p.val; rw [e4]; omega
    | ⟨1, _⟩ => show win5_2.index t (1 : Fin 2) * 32 + 1 * q.val = q.val; rw [e5]; omega
  rw [View.read_apply, hemb]
  show k5_pay1 (iblk5 V c 0 t) (iblk5 V c 1 t) (ix2 p q) = (addRow (V c main_v75 : S200000x32.Idx → EReal) (V c main_v76 : S1x32.Idx → EReal)) (ix2 (⟨t.val * 8000 + p.val, by omega⟩ : Fin 200000) q)
  refine (Bodies.pay5_apply (iblk5 V c 0 t) (iblk5 V c 1 t) p q).trans ?_
  rw [addRow_apply, rows_apply V c t p q ⟨t.val * 8000 + p.val, by omega⟩ rfl, bias_apply V c t q]

/-- Every entry of the result lies in the tile of the point its row falls in. -/
theorem cover (c : Dev nD) (i : S200000x32.Idx) :
    ∃ t : Fin cfg5.N, (cfg5.win 2).flush t = true ∧ i ∈ ((cfg5.win 2).blk t).view.set := by
  have hN : cfg5.N = 25 := N_5
  have hi0 : (i 0).val < 200000 := (i 0).isLt
  have hi1 : (i 1).val < 32 := (i 1).isLt
  have hlt : (i 0).val / 8000 < cfg5.N := by rw [hN]; omega
  obtain ⟨-, -, -, -, e4, e5⟩ := idx ⟨(i 0).val / 8000, hlt⟩
  refine ⟨⟨(i 0).val / 8000, hlt⟩, flush5_2 _, ?_⟩
  show i ∈ ((View.whole main_v77).slice (win5_2.rect ⟨(i 0).val / 8000, hlt⟩)).set
  rw [View.set_slice_whole, Rect.mem_set_unit]
  intro ax
  match ax with
  | ⟨0, _⟩ =>
    show win5_2.index ⟨(i 0).val / 8000, hlt⟩ (0 : Fin 2) * 8000 ≤ (i 0).val ∧ (i 0).val < win5_2.index ⟨(i 0).val / 8000, hlt⟩ (0 : Fin 2) * 8000 + 8000
    rw [e4]; show (i 0).val / 8000 * 8000 ≤ (i 0).val ∧ (i 0).val < (i 0).val / 8000 * 8000 + 8000; omega
  | ⟨1, _⟩ =>
    show win5_2.index ⟨(i 0).val / 8000, hlt⟩ (1 : Fin 2) * 32 ≤ (i 1).val ∧ (i 1).val < win5_2.index ⟨(i 0).val / 8000, hlt⟩ (1 : Fin 2) * 32 + 32
    rw [e5]; omega

/-- The result array after the region, as one function of the two arrays the region found. -/
theorem final (c : Dev nD) :
    (dat5 V c).arrAt 2 cfg5.N = addRow (V c main_v75 : S200000x32.Idx → EReal) (V c main_v76 : S1x32.Idx → EReal) :=
  (dat5 V c).arrAt_eq_of_cover 2 _ (fun t _ => flushed V c t) (cover c)

end Cert.KernelIdeal.Tile5

end
-- ==== Proof.Tile6.lean ====
/-
  Region 6, whole: the output head, logistic (h · W + b).

  The grid has 25 points; point t reads rows 8000 t … 8000 t + 7999 of the last hidden array, the whole weight matrix
  and the one bias row, and writes the same rows of the result: entry (r, q) is the logistic function of
  (the sum over k of h (r, k) · W (k, q)) + b (0, q).
-/
import proofs.«128537_j40252433498207_1_alg».proof.Proof.Gen.KernelIdeal.Frame
import proofs.«128537_j40252433498207_1_alg».proof.Proof.Bodies
import proofs.«128537_j40252433498207_1_alg».proof.Proof.LibLayerOps
import Idealize.ShloMosaic.Lib.Pipeline.Value
import Idealize.ShloMosaic.Lib.Tactic

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelIdeal.Tile6

open Cert.KernelIdeal Cert.KernelIdeal.Gen Cert.LayerOps

variable (V : (c : Dev nD) → (b : Ref sig .tc) → Buf (Elt Ideal) ((c : Thread nD τ).loc b))

theorem hz : (![0, 0] : Fin 2 → Nat) = fun _ => 0 := funext fun a => by fin_cases a <;> rfl

/-- The four windows' block indices at every grid point: the row windows sit at block t, the weights and the bias at block 0. -/
theorem idx : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The row window's block at point t is rows 8000 t + p of the hidden array. -/
theorem rows_apply (c : Dev nD) (t : Fin cfg6.N) (p : Fin 8000) (j : Fin 32) (r : Fin 200000) (hr : r.val = t.val * 8000 + p.val) :
    (iblk6 V c 0 t : Vec Ideal S8000x32 .f32) (ix2 p j) = (V c main_v77 : S200000x32.Idx → EReal) (ix2 r j) := by
  obtain ⟨e0, e1, -⟩ := idx t
  unfold iblk6
  rw [View.read_apply]
  show (V c main_v77 : S200000x32.Idx → EReal) _ = (V c main_v77 : S200000x32.Idx → EReal) _
  refine congrArg _ (funext fun ax => Fin.ext ?_)
  match ax with
  | ⟨0, _⟩ => show win6_0.index t (0 : Fin 2) * 8000 + 1 * p.val = r.val; rw [e0, hr]; omega
  | ⟨1, _⟩ => show win6_0.index t (1 : Fin 2) * 32 + 1 * j.val = j.val; rw [e1]; omega

/-- The weight window's block at every point is the whole weight matrix. -/
theorem weights_apply (c : Dev nD) (t : Fin cfg6.N) (j : Fin 32) (q : Fin 128) :
    (iblk6 V c 1 t : Vec Ideal S32x128 .f32) (ix2 j q) = (V c main_arg8 : S32x128.Idx → EReal) (ix2 j q) := by
  obtain ⟨-, -, e2, e3, -⟩ := idx t
  unfold iblk6
  rw [View.read_apply]
  show (V c main_arg8 : S32x128.Idx → EReal) _ = (V c main_arg8 : S32x128.Idx → EReal) _
  refine congrArg _ (funext fun ax => Fin.ext ?_)
  match ax with
  | ⟨0, _⟩ => show win6_1.index t (0 : Fin 2) * 32 + 1 * j.val = j.val; rw [e2]; omega
  | ⟨1, _⟩ => show win6_1.index t (1 : Fin 2) * 128 + 1 * q.val = q.val; rw [e3]; omega

/-- The bias window's block at every point is the one bias row. -/
theorem bias_apply (c : Dev nD) (t : Fin cfg6.N) (q : Fin 128) :
    (iblk6 V c 2 t : Vec Ideal S1x128 .f32) (ix2 (0 : Fin 1) q) = (V c main_v78 : S1x128.Idx → EReal) (ix2 (0 : Fin 1) q) := by
  obtain ⟨-, -, -, -, e4, e5, -⟩ := idx t
  unfold iblk6
  rw [View.read_apply]
  show (V c main_v78 : S1x128.Idx → EReal) _ = (V c main_v78 : S1x128.Idx → EReal) _
  refine congrArg _ (funext fun ax => Fin.ext ?_)
  match ax with
  | ⟨0, _⟩ => show win6_2.index t (0 : Fin 2) * 1 + 1 * 0 = 0; rw [e4]
  | ⟨1, _⟩ => show win6_2.index t (1 : Fin 2) * 128 + 1 * q.val = q.val; rw [e5]; omega

/-- What point t writes back is tile t of the whole result. -/
theorem flushed (c : Dev nD) (t : Fin cfg6.N) :
    (dat6 V c).flushed 3 t = ((cfg6.win 3).blk t).view.read (Elt Ideal)
      (sigm (addRow (rowsDot (V c main_v77 : S200000x32.Idx → EReal) (V c main_arg8 : S32x128.Idx → EReal)) (V c main_v78 : S1x128.Idx → EReal))) := by
  have hN : cfg6.N = 25 := N_6
  have ht : t.val < 25 := hN ▸ t.isLt
  obtain ⟨-, -, -, -, -, -, e6, e7⟩ := idx t
  show (cfg6.win 3).cut (grid6.coords t) ((dat6 V c).after 3 t) = _
  rw [after6_3]
  unfold out6_3
  rw [View.canon_unit_zero hz]
  simp only [View.ld_unit_zero (S := S8000x32) hz, View.ld_unit_zero (S := S32x128) hz, View.ld_unit_zero (S := S1x128) hz]
  funext y
  obtain ⟨p, q, rfl⟩ : ∃ (p : Fin 8000) (q : Fin 128), y = ix2 p q := ⟨y 0, y 1, eq_ix2 y⟩
  have hemb : ((cfg6.win 3).blk t).view.emb (ix2 p q) = (ix2 (⟨t.val * 8000 + p.val, by omega⟩ : Fin 200000) q : S200000x128.Idx) := by
    funext ax; apply Fin.ext
    match ax with
    | ⟨0, _⟩ => show win6_3.index t (0 : Fin 2) * 8000 + 1 * p.val = t.val * 8000 + p.val; rw [e6]; omega
    | ⟨1, _⟩ => show win6_3.index t (1 : Fin 2) * 128 + 1 * q.val = q.val; rw [e7]; omega
  rw [View.read_apply, hemb]
  show k6_pay1 (iblk6 V c 0 t) (iblk6 V c 1 t) (iblk6 V c 2 t) (ix2 p q)
    = (sigm (addRow (rowsDot (V c main_v77 : S200000x32.Idx → EReal) (V c main_arg8 : S32x128.Idx → EReal)) (V c main_v78 : S1x128.Idx → EReal)))
        (ix2 (⟨t.val * 8000 + p.val, by omega⟩ : Fin 200000) q)
  refine (Bodies.pay6_apply (iblk6 V c 0 t) (iblk6 V c 1 t) (iblk6 V c 2 t) p q).trans ?_
  rw [sigm_apply, addRow_apply, rowsDot_apply, bias_apply V c t q]
  refine congrArg (fun s : EReal => Ideal.logistic (s + _)) (Finset.sum_congr rfl fun j _ => ?_)
  rw [rows_apply V c t p j ⟨t.val * 8000 + p.val, by omega⟩ rfl, weights_apply V c t j q]

/-- Every entry of the result lies in the tile of the point its row falls in. -/
theorem cover (c : Dev nD) (i : S200000x128.Idx) :
    ∃ t : Fin cfg6.N, (cfg6.win 3).flush t = true ∧ i ∈ ((cfg6.win 3).blk t).view.set := by
  have hN : cfg6.N = 25 := N_6
  have hi0 : (i 0).val < 200000 := (i 0).isLt
  have hi1 : (i 1).val < 128 := (i 1).isLt
  have hlt : (i 0).val / 8000 < cfg6.N := by rw [hN]; omega
  obtain ⟨-, -, -, -, -, -, e6, e7⟩ := idx ⟨(i 0).val / 8000, hlt⟩
  refine ⟨⟨(i 0).val / 8000, hlt⟩, flush6_3 _, ?_⟩
  show i ∈ ((View.whole main_v79).slice (win6_3.rect ⟨(i 0).val / 8000, hlt⟩)).set
  rw [View.set_slice_whole, Rect.mem_set_unit]
  intro ax
  match ax with
  | ⟨0, _⟩ =>
    show win6_3.index ⟨(i 0).val / 8000, hlt⟩ (0 : Fin 2) * 8000 ≤ (i 0).val ∧ (i 0).val < win6_3.index ⟨(i 0).val / 8000, hlt⟩ (0 : Fin 2) * 8000 + 8000
    rw [e6]; show (i 0).val / 8000 * 8000 ≤ (i 0).val ∧ (i 0).val < (i 0).val / 8000 * 8000 + 8000; omega
  | ⟨1, _⟩ =>
    show win6_3.index ⟨(i 0).val / 8000, hlt⟩ (1 : Fin 2) * 128 ≤ (i 1).val ∧ (i 1).val < win6_3.index ⟨(i 0).val / 8000, hlt⟩ (1 : Fin 2) * 128 + 128
    rw [e7]; omega

/-- The result array after the region, as one function of the three arrays the region found. -/
theorem final (c : Dev nD) :
    (dat6 V c).arrAt 3 cfg6.N
      = sigm (addRow (rowsDot (V c main_v77 : S200000x32.Idx → EReal) (V c main_arg8 : S32x128.Idx → EReal)) (V c main_v78 : S1x128.Idx → EReal)) :=
  (dat6 V c).arrAt_eq_of_cover 3 _ (fun t _ => flushed V c t) (cover c)

end Cert.KernelIdeal.Tile6

end
-- ==== Proof.KernelChain.lean ====
/-
  The kernel program's result as a function of its arguments.

  Between the launch and the return the buffers' contents pass fourteen boundaries: a stretch of host operations
  rewrites the buffers its operations write, a region rewrites its output array, and everything else is carried. The
  edge list's derived arrays (the two index vectors with the self loops appended, and each edge's normalisation) are
  computed once, before the first region, and read by every layer. Reading the result back through the boundaries
  gives three rounds of product, aggregation over the edges and bias, the first two through the logistic function,
  then the output head.
-/
import proofs.«128537_j40252433498207_1_alg».proof.Proof.Gen.KernelIdeal.Frame
import proofs.«128537_j40252433498207_1_alg».proof.Proof.Tile0
import proofs.«128537_j40252433498207_1_alg».proof.Proof.Tile1
import proofs.«128537_j40252433498207_1_alg».proof.Proof.Tile2
import proofs.«128537_j40252433498207_1_alg».proof.Proof.Tile3
import proofs.«128537_j40252433498207_1_alg».proof.Proof.Tile4
import proofs.«128537_j40252433498207_1_alg».proof.Proof.Tile5
import proofs.«128537_j40252433498207_1_alg».proof.Proof.Tile6
import proofs.«128537_j40252433498207_1_alg».proof.Proof.LibLayerOps
import Idealize.ShloMosaic.Lib.StableHlo.Run

set_option maxRecDepth 16384

noncomputable section

open scoped BigOperators

open Idealize.ShloMosaic Idealize.ShloMosaic.TcCoe Idealize.SL.Sem Idealize.ShloMosaic.ValueIdx Idealize.ShloMosaic.StableHlo

namespace Cert.KernelIdeal.Chain

open Cert.KernelIdeal Cert.KernelIdeal.Gen Cert.LayerOps

/-- The aggregation over the edges, as the host operations between two regions compute it from an array of rows
    `hw`, the edges' source and destination vectors (self loops appended) and the edges' normalisation: source rows
    gathered (a negative index counted from the end), scaled, and summed into their destination rows. -/
def aggK {F : FTy → Type} [FloatOps F] (hw : (⟨S200000x32, .f32⟩ : BufTy).Contents (Elt F))
    (src dst : (⟨S6600000, .i32⟩ : BufTy).Contents (Elt F)) (nrm : (⟨S6600000, .f32⟩ : BufTy).Contents (Elt F)) :
    (⟨S200000x32, .f32⟩ : BufTy).Contents (Elt F) :=
  Host.scatterAdd scatter_S200000x32_S6600000x1_S6600000x32_1_0_0_1
    (broadcastInDim S200000x32 ![] bcast_S_S200000x32 (constant (F := F) S_ .f32 0x00000000#32))
    (broadcastInDim S6600000x1 ![0] bcast_S6600000_S6600000x1_0 dst)
    (mulf (Host.gather gather_S200000x32_S6600000x1_S6600000x32_1_0_n_n_0_1_132 hw
        (broadcastInDim S6600000x1 ![0] bcast_S6600000_S6600000x1_0
          (select (cmpi .slt src (broadcastInDim S6600000 ![] bcast_S_S6600000 (constantI S_ 32 0#32)))
            (addi src (broadcastInDim S6600000 ![] bcast_S_S6600000 (constantI S_ 32 200000#32))) src)))
      (broadcastInDim S6600000x32 ![0, 1] bcast_S6600000x1_S6600000x32_0_1 (broadcastInDim S6600000x1 ![0] bcast_S6600000_S6600000x1_0 nrm)))

/-- A buffer that no operation of a stretch writes holds after the stretch what it held before. -/
macro "host_keep" : tactic => `(tactic|
  (refine StableHlo.after_of_forall_not_mem _ _ (List.forall_iff_forall_mem.mp ?_)
   simp only [hostOps0, hostOps0_1, hostOps0_2, hostOps1, hostOps3, hostOps5, hostOps6, List.Forall, StableHlo.nullary_writes,
     StableHlo.unary_writes, StableHlo.binary_writes, StableHlo.ternary_writes, StableHlo.quaternary_writes, StableHlo.reshape_writes,
     StableHlo.binaryIndexed_writes, Finset.mem_singleton]
   repeat' apply And.intro
   all_goals exact StableHlo.devRef_ne_of_ne (by decide)))

variable (m : (ℓ : Loc nD τ sig) → Buf (Elt Ideal) ℓ) (ρ : Dev nD → PrngReg) (c : Dev nD)

/-! ## What is carried across the boundaries -/

/-- No operation and no region before boundary 3 writes argument 0. -/
theorem W3_arg0 : W3 m ρ c (Proc.devRef .tc main_arg0) = m ((c : Thread nD τ).loc main_arg0) :=
  (by host_keep : W3 m ρ c (Proc.devRef .tc main_arg0) = W2 m ρ c (Proc.devRef .tc main_arg0)).trans ((by host_keep : W2 m ρ c (Proc.devRef .tc main_arg0) = W1 m ρ c (Proc.devRef .tc main_arg0)).trans ((by host_keep : W1 m ρ c (Proc.devRef .tc main_arg0) = W0 m ρ c (Proc.devRef .tc main_arg0)).trans (rfl)))
/-- No operation and no region before boundary 3 writes argument 2. -/
theorem W3_arg2 : W3 m ρ c (Proc.devRef .tc main_arg2) = m ((c : Thread nD τ).loc main_arg2) :=
  (by host_keep : W3 m ρ c (Proc.devRef .tc main_arg2) = W2 m ρ c (Proc.devRef .tc main_arg2)).trans ((by host_keep : W2 m ρ c (Proc.devRef .tc main_arg2) = W1 m ρ c (Proc.devRef .tc main_arg2)).trans ((by host_keep : W1 m ρ c (Proc.devRef .tc main_arg2) = W0 m ρ c (Proc.devRef .tc main_arg2)).trans (rfl)))
/-- No operation and no region before boundary 4 writes argument 3. -/
theorem W4_arg3 : W4 m ρ c (Proc.devRef .tc main_arg3) = m ((c : Thread nD τ).loc main_arg3) :=
  (W4_of_ne m ρ c main_arg3 (by decide)).trans ((by host_keep : W3 m ρ c (Proc.devRef .tc main_arg3) = W2 m ρ c (Proc.devRef .tc main_arg3)).trans ((by host_keep : W2 m ρ c (Proc.devRef .tc main_arg3) = W1 m ρ c (Proc.devRef .tc main_arg3)).trans ((by host_keep : W1 m ρ c (Proc.devRef .tc main_arg3) = W0 m ρ c (Proc.devRef .tc main_arg3)).trans (rfl))))
/-- No operation and no region before boundary 6 writes argument 4. -/
theorem W6_arg4 : W6 m ρ c (Proc.devRef .tc main_arg4) = m ((c : Thread nD τ).loc main_arg4) :=
  (W6_of_ne m ρ c main_arg4 (by decide)).trans ((by host_keep : W5 m ρ c (Proc.devRef .tc main_arg4) = W4 m ρ c (Proc.devRef .tc main_arg4)).trans ((W4_of_ne m ρ c main_arg4 (by decide)).trans ((by host_keep : W3 m ρ c (Proc.devRef .tc main_arg4) = W2 m ρ c (Proc.devRef .tc main_arg4)).trans ((by host_keep : W2 m ρ c (Proc.devRef .tc main_arg4) = W1 m ρ c (Proc.devRef .tc main_arg4)).trans ((by host_keep : W1 m ρ c (Proc.devRef .tc main_arg4) = W0 m ρ c (Proc.devRef .tc main_arg4)).trans (rfl))))))
/-- No operation and no region before boundary 7 writes argument 5. -/
theorem W7_arg5 : W7 m ρ c (Proc.devRef .tc main_arg5) = m ((c : Thread nD τ).loc main_arg5) :=
  (W7_of_ne m ρ c main_arg5 (by decide)).trans ((W6_of_ne m ρ c main_arg5 (by decide)).trans ((by host_keep : W5 m ρ c (Proc.devRef .tc main_arg5) = W4 m ρ c (Proc.devRef .tc main_arg5)).trans ((W4_of_ne m ρ c main_arg5 (by decide)).trans ((by host_keep : W3 m ρ c (Proc.devRef .tc main_arg5) = W2 m ρ c (Proc.devRef .tc main_arg5)).trans ((by host_keep : W2 m ρ c (Proc.devRef .tc main_arg5) = W1 m ρ c (Proc.devRef .tc main_arg5)).trans ((by host_keep : W1 m ρ c (Proc.devRef .tc main_arg5) = W0 m ρ c (Proc.devRef .tc main_arg5)).trans (rfl)))))))
/-- No operation and no region before boundary 9 writes argument 6. -/
theorem W9_arg6 : W9 m ρ c (Proc.devRef .tc main_arg6) = m ((c : Thread nD τ).loc main_arg6) :=
  (W9_of_ne m ρ c main_arg6 (by decide)).trans ((by host_keep : W8 m ρ c (Proc.devRef .tc main_arg6) = W7 m ρ c (Proc.devRef .tc main_arg6)).trans ((W7_of_ne m ρ c main_arg6 (by decide)).trans ((W6_of_ne m ρ c main_arg6 (by decide)).trans ((by host_keep : W5 m ρ c (Proc.devRef .tc main_arg6) = W4 m ρ c (Proc.devRef .tc main_arg6)).trans ((W4_of_ne m ρ c main_arg6 (by decide)).trans ((by host_keep : W3 m ρ c (Proc.devRef .tc main_arg6) = W2 m ρ c (Proc.devRef .tc main_arg6)).trans ((by host_keep : W2 m ρ c (Proc.devRef .tc main_arg6) = W1 m ρ c (Proc.devRef .tc main_arg6)).trans ((by host_keep : W1 m ρ c (Proc.devRef .tc main_arg6) = W0 m ρ c (Proc.devRef .tc main_arg6)).trans (rfl)))))))))
/-- No operation and no region before boundary 10 writes argument 7. -/
theorem W10_arg7 : W10 m ρ c (Proc.devRef .tc main_arg7) = m ((c : Thread nD τ).loc main_arg7) :=
  (W10_of_ne m ρ c main_arg7 (by decide)).trans ((W9_of_ne m ρ c main_arg7 (by decide)).trans ((by host_keep : W8 m ρ c (Proc.devRef .tc main_arg7) = W7 m ρ c (Proc.devRef .tc main_arg7)).trans ((W7_of_ne m ρ c main_arg7 (by decide)).trans ((W6_of_ne m ρ c main_arg7 (by decide)).trans ((by host_keep : W5 m ρ c (Proc.devRef .tc main_arg7) = W4 m ρ c (Proc.devRef .tc main_arg7)).trans ((W4_of_ne m ρ c main_arg7 (by decide)).trans ((by host_keep : W3 m ρ c (Proc.devRef .tc main_arg7) = W2 m ρ c (Proc.devRef .tc main_arg7)).trans ((by host_keep : W2 m ρ c (Proc.devRef .tc main_arg7) = W1 m ρ c (Proc.devRef .tc main_arg7)).trans ((by host_keep : W1 m ρ c (Proc.devRef .tc main_arg7) = W0 m ρ c (Proc.devRef .tc main_arg7)).trans (rfl))))))))))
/-- No operation and no region before boundary 12 writes argument 9. -/
theorem W12_arg9 : W12 m ρ c (Proc.devRef .tc main_arg9) = m ((c : Thread nD τ).loc main_arg9) :=
  (W12_of_ne m ρ c main_arg9 (by decide)).trans ((by host_keep : W11 m ρ c (Proc.devRef .tc main_arg9) = W10 m ρ c (Proc.devRef .tc main_arg9)).trans ((W10_of_ne m ρ c main_arg9 (by decide)).trans ((W9_of_ne m ρ c main_arg9 (by decide)).trans ((by host_keep : W8 m ρ c (Proc.devRef .tc main_arg9) = W7 m ρ c (Proc.devRef .tc main_arg9)).trans ((W7_of_ne m ρ c main_arg9 (by decide)).trans ((W6_of_ne m ρ c main_arg9 (by decide)).trans ((by host_keep : W5 m ρ c (Proc.devRef .tc main_arg9) = W4 m ρ c (Proc.devRef .tc main_arg9)).trans ((W4_of_ne m ρ c main_arg9 (by decide)).trans ((by host_keep : W3 m ρ c (Proc.devRef .tc main_arg9) = W2 m ρ c (Proc.devRef .tc main_arg9)).trans ((by host_keep : W2 m ρ c (Proc.devRef .tc main_arg9) = W1 m ρ c (Proc.devRef .tc main_arg9)).trans ((by host_keep : W1 m ρ c (Proc.devRef .tc main_arg9) = W0 m ρ c (Proc.devRef .tc main_arg9)).trans (rfl))))))))))))
/-- No operation and no region before boundary 13 writes argument 8. -/
theorem W13_arg8 : W13 m ρ c (Proc.devRef .tc main_arg8) = m ((c : Thread nD τ).loc main_arg8) :=
  (by host_keep : W13 m ρ c (Proc.devRef .tc main_arg8) = W12 m ρ c (Proc.devRef .tc main_arg8)).trans ((W12_of_ne m ρ c main_arg8 (by decide)).trans ((by host_keep : W11 m ρ c (Proc.devRef .tc main_arg8) = W10 m ρ c (Proc.devRef .tc main_arg8)).trans ((W10_of_ne m ρ c main_arg8 (by decide)).trans ((W9_of_ne m ρ c main_arg8 (by decide)).trans ((by host_keep : W8 m ρ c (Proc.devRef .tc main_arg8) = W7 m ρ c (Proc.devRef .tc main_arg8)).trans ((W7_of_ne m ρ c main_arg8 (by decide)).trans ((W6_of_ne m ρ c main_arg8 (by decide)).trans ((by host_keep : W5 m ρ c (Proc.devRef .tc main_arg8) = W4 m ρ c (Proc.devRef .tc main_arg8)).trans ((W4_of_ne m ρ c main_arg8 (by decide)).trans ((by host_keep : W3 m ρ c (Proc.devRef .tc main_arg8) = W2 m ρ c (Proc.devRef .tc main_arg8)).trans ((by host_keep : W2 m ρ c (Proc.devRef .tc main_arg8) = W1 m ρ c (Proc.devRef .tc main_arg8)).trans ((by host_keep : W1 m ρ c (Proc.devRef .tc main_arg8) = W0 m ρ c (Proc.devRef .tc main_arg8)).trans (rfl)))))))))))))

/-- The source vector is written before the first region and by nothing after it. -/
theorem W4_v5 : W4 m ρ c (Proc.devRef .tc main_v5) = W3 m ρ c (Proc.devRef .tc main_v5) :=
  (W4_of_ne m ρ c main_v5 (by decide))
/-- The destination vector is written before the first region and by nothing after it. -/
theorem W4_v6 : W4 m ρ c (Proc.devRef .tc main_v6) = W3 m ρ c (Proc.devRef .tc main_v6) :=
  (W4_of_ne m ρ c main_v6 (by decide))
/-- The normalisation is written before the first region and by nothing after it. -/
theorem W4_v29 : W4 m ρ c (Proc.devRef .tc main_v29) = W3 m ρ c (Proc.devRef .tc main_v29) :=
  (W4_of_ne m ρ c main_v29 (by decide))
/-- The source vector is written before the first region and by nothing after it. -/
theorem W7_v5 : W7 m ρ c (Proc.devRef .tc main_v5) = W3 m ρ c (Proc.devRef .tc main_v5) :=
  (W7_of_ne m ρ c main_v5 (by decide)).trans ((W6_of_ne m ρ c main_v5 (by decide)).trans ((by host_keep : W5 m ρ c (Proc.devRef .tc main_v5) = W4 m ρ c (Proc.devRef .tc main_v5)).trans ((W4_of_ne m ρ c main_v5 (by decide)))))
/-- The destination vector is written before the first region and by nothing after it. -/
theorem W7_v6 : W7 m ρ c (Proc.devRef .tc main_v6) = W3 m ρ c (Proc.devRef .tc main_v6) :=
  (W7_of_ne m ρ c main_v6 (by decide)).trans ((W6_of_ne m ρ c main_v6 (by decide)).trans ((by host_keep : W5 m ρ c (Proc.devRef .tc main_v6) = W4 m ρ c (Proc.devRef .tc main_v6)).trans ((W4_of_ne m ρ c main_v6 (by decide)))))
/-- The normalisation is written before the first region and by nothing after it. -/
theorem W7_v29 : W7 m ρ c (Proc.devRef .tc main_v29) = W3 m ρ c (Proc.devRef .tc main_v29) :=
  (W7_of_ne m ρ c main_v29 (by decide)).trans ((W6_of_ne m ρ c main_v29 (by decide)).trans ((by host_keep : W5 m ρ c (Proc.devRef .tc main_v29) = W4 m ρ c (Proc.devRef .tc main_v29)).trans ((W4_of_ne m ρ c main_v29 (by decide)))))
/-- The source vector is written before the first region and by nothing after it. -/
theorem W10_v5 : W10 m ρ c (Proc.devRef .tc main_v5) = W3 m ρ c (Proc.devRef .tc main_v5) :=
  (W10_of_ne m ρ c main_v5 (by decide)).trans ((W9_of_ne m ρ c main_v5 (by decide)).trans ((by host_keep : W8 m ρ c (Proc.devRef .tc main_v5) = W7 m ρ c (Proc.devRef .tc main_v5)).trans ((W7_of_ne m ρ c main_v5 (by decide)).trans ((W6_of_ne m ρ c main_v5 (by decide)).trans ((by host_keep : W5 m ρ c (Proc.devRef .tc main_v5) = W4 m ρ c (Proc.devRef .tc main_v5)).trans ((W4_of_ne m ρ c main_v5 (by decide))))))))
/-- The destination vector is written before the first region and by nothing after it. -/
theorem W10_v6 : W10 m ρ c (Proc.devRef .tc main_v6) = W3 m ρ c (Proc.devRef .tc main_v6) :=
  (W10_of_ne m ρ c main_v6 (by decide)).trans ((W9_of_ne m ρ c main_v6 (by decide)).trans ((by host_keep : W8 m ρ c (Proc.devRef .tc main_v6) = W7 m ρ c (Proc.devRef .tc main_v6)).trans ((W7_of_ne m ρ c main_v6 (by decide)).trans ((W6_of_ne m ρ c main_v6 (by decide)).trans ((by host_keep : W5 m ρ c (Proc.devRef .tc main_v6) = W4 m ρ c (Proc.devRef .tc main_v6)).trans ((W4_of_ne m ρ c main_v6 (by decide))))))))
/-- The normalisation is written before the first region and by nothing after it. -/
theorem W10_v29 : W10 m ρ c (Proc.devRef .tc main_v29) = W3 m ρ c (Proc.devRef .tc main_v29) :=
  (W10_of_ne m ρ c main_v29 (by decide)).trans ((W9_of_ne m ρ c main_v29 (by decide)).trans ((by host_keep : W8 m ρ c (Proc.devRef .tc main_v29) = W7 m ρ c (Proc.devRef .tc main_v29)).trans ((W7_of_ne m ρ c main_v29 (by decide)).trans ((W6_of_ne m ρ c main_v29 (by decide)).trans ((by host_keep : W5 m ρ c (Proc.devRef .tc main_v29) = W4 m ρ c (Proc.devRef .tc main_v29)).trans ((W4_of_ne m ρ c main_v29 (by decide))))))))

/-- The last stretch (the head's bias laid out as a row) leaves the third hidden array as the region before it wrote it. -/
theorem W13_v77 : W13 m ρ c (Proc.devRef .tc main_v77) = W12 m ρ c (Proc.devRef .tc main_v77) := by host_keep

/-! ## The stretches between the regions -/

set_option maxHeartbeats 4000000 in
/-- After the first product: the aggregation of it, by the carried edge arrays. -/
theorem W5_v43 : W5 m ρ c (Proc.devRef .tc main_v43) = aggK (W4 m ρ c (Proc.devRef .tc main_v30)) (W3 m ρ c (Proc.devRef .tc main_v5)) (W3 m ρ c (Proc.devRef .tc main_v6)) (W3 m ρ c (Proc.devRef .tc main_v29)) := by
  rw [← W4_v5 m ρ c, ← W4_v6 m ρ c, ← W4_v29 m ρ c]
  show StableHlo.after hostOps1 (W4 m ρ c) (Proc.devRef .tc main_v43) = _
  dsimp only [hostOps1]
  after_results
  rfl
/-- And the first bias vector laid out as a row. -/
theorem W5_v44 : W5 m ρ c (Proc.devRef .tc main_v44) = shapeCast S1x32 (m ((c : Thread nD τ).loc main_arg3)) shapeCasts_S32_S1x32 := by
  rw [← W4_arg3 m ρ c]
  show StableHlo.after hostOps1 (W4 m ρ c) (Proc.devRef .tc main_v44) = _
  dsimp only [hostOps1]
  after_results
  rfl
set_option maxHeartbeats 4000000 in
/-- After the second product: its aggregation. -/
theorem W8_v59 : W8 m ρ c (Proc.devRef .tc main_v59) = aggK (W7 m ρ c (Proc.devRef .tc main_v46)) (W3 m ρ c (Proc.devRef .tc main_v5)) (W3 m ρ c (Proc.devRef .tc main_v6)) (W3 m ρ c (Proc.devRef .tc main_v29)) := by
  rw [← W7_v5 m ρ c, ← W7_v6 m ρ c, ← W7_v29 m ρ c]
  show StableHlo.after hostOps3 (W7 m ρ c) (Proc.devRef .tc main_v59) = _
  dsimp only [hostOps3]
  after_results
  rfl
theorem W8_v60 : W8 m ρ c (Proc.devRef .tc main_v60) = shapeCast S1x32 (m ((c : Thread nD τ).loc main_arg5)) shapeCasts_S32_S1x32 := by
  rw [← W7_arg5 m ρ c]
  show StableHlo.after hostOps3 (W7 m ρ c) (Proc.devRef .tc main_v60) = _
  dsimp only [hostOps3]
  after_results
  rfl
set_option maxHeartbeats 4000000 in
/-- After the third product: its aggregation. -/
theorem W11_v75 : W11 m ρ c (Proc.devRef .tc main_v75) = aggK (W10 m ρ c (Proc.devRef .tc main_v62)) (W3 m ρ c (Proc.devRef .tc main_v5)) (W3 m ρ c (Proc.devRef .tc main_v6)) (W3 m ρ c (Proc.devRef .tc main_v29)) := by
  rw [← W10_v5 m ρ c, ← W10_v6 m ρ c, ← W10_v29 m ρ c]
  show StableHlo.after hostOps5 (W10 m ρ c) (Proc.devRef .tc main_v75) = _
  dsimp only [hostOps5]
  after_results
  rfl
theorem W11_v76 : W11 m ρ c (Proc.devRef .tc main_v76) = shapeCast S1x32 (m ((c : Thread nD τ).loc main_arg7)) shapeCasts_S32_S1x32 := by
  rw [← W10_arg7 m ρ c]
  show StableHlo.after hostOps5 (W10 m ρ c) (Proc.devRef .tc main_v76) = _
  dsimp only [hostOps5]
  after_results
  rfl
/-- The head's bias vector laid out as a row. -/
theorem W13_v78 : W13 m ρ c (Proc.devRef .tc main_v78) = shapeCast S1x128 (m ((c : Thread nD τ).loc main_arg9)) shapeCasts_S128_S1x128 := by
  rw [← W12_arg9 m ρ c]
  show StableHlo.after hostOps6 (W12 m ρ c) (Proc.devRef .tc main_v78) = _
  dsimp only [hostOps6]
  after_results
  rfl

/-! ## The regions, in order -/

/-- The first product. -/
theorem hw1 : W4 m ρ c (Proc.devRef .tc main_v30) = (rowsDot (m ((c : Thread nD τ).loc main_arg0)) (m ((c : Thread nD τ).loc main_arg2))) := by
  rw [← W3_arg0 m ρ c, ← W3_arg2 m ρ c]
  exact (W4_arr m ρ c 2).trans (Tile0.final (V3 m ρ) c)

/-- The first hidden array. -/
theorem hid1 : W6 m ρ c (Proc.devRef .tc main_v45) = (sigm (addVec (aggK (rowsDot (m ((c : Thread nD τ).loc main_arg0)) (m ((c : Thread nD τ).loc main_arg2))) (W3 m ρ c (Proc.devRef .tc main_v5)) (W3 m ρ c (Proc.devRef .tc main_v6)) (W3 m ρ c (Proc.devRef .tc main_v29))) (m ((c : Thread nD τ).loc main_arg3)))) := by
  rw [← hw1 m ρ c, ← W5_v43 m ρ c, ← addRow_shapeCast _ _ shapeCasts_S32_S1x32, ← W5_v44 m ρ c]
  exact (W6_arr m ρ c 2).trans (Tile1.final (V5 m ρ) c)

/-- The second product. -/
theorem hw2 : W7 m ρ c (Proc.devRef .tc main_v46) = (rowsDot (sigm (addVec (aggK (rowsDot (m ((c : Thread nD τ).loc main_arg0)) (m ((c : Thread nD τ).loc main_arg2))) (W3 m ρ c (Proc.devRef .tc main_v5)) (W3 m ρ c (Proc.devRef .tc main_v6)) (W3 m ρ c (Proc.devRef .tc main_v29))) (m ((c : Thread nD τ).loc main_arg3)))) (m ((c : Thread nD τ).loc main_arg4))) := by
  rw [← hid1 m ρ c, ← W6_arg4 m ρ c]
  exact (W7_arr m ρ c 2).trans (Tile2.final (V6 m ρ) c)

/-- The second hidden array. -/
theorem hid2 : W9 m ρ c (Proc.devRef .tc main_v61) = (sigm (addVec (aggK (rowsDot (sigm (addVec (aggK (rowsDot (m ((c : Thread nD τ).loc main_arg0)) (m ((c : Thread nD τ).loc main_arg2))) (W3 m ρ c (Proc.devRef .tc main_v5)) (W3 m ρ c (Proc.devRef .tc main_v6)) (W3 m ρ c (Proc.devRef .tc main_v29))) (m ((c : Thread nD τ).loc main_arg3)))) (m ((c : Thread nD τ).loc main_arg4))) (W3 m ρ c (Proc.devRef .tc main_v5)) (W3 m ρ c (Proc.devRef .tc main_v6)) (W3 m ρ c (Proc.devRef .tc main_v29))) (m ((c : Thread nD τ).loc main_arg5)))) := by
  rw [← hw2 m ρ c, ← W8_v59 m ρ c, ← addRow_shapeCast _ _ shapeCasts_S32_S1x32, ← W8_v60 m ρ c]
  exact (W9_arr m ρ c 2).trans (Tile3.final (V8 m ρ) c)

/-- The third product. -/
theorem hw3 : W10 m ρ c (Proc.devRef .tc main_v62) = (rowsDot (sigm (addVec (aggK (rowsDot (sigm (addVec (aggK (rowsDot (m ((c : Thread nD τ).loc main_arg0)) (m ((c : Thread nD τ).loc main_arg2))) (W3 m ρ c (Proc.devRef .tc main_v5)) (W3 m ρ c (Proc.devRef .tc main_v6)) (W3 m ρ c (Proc.devRef .tc main_v29))) (m ((c : Thread nD τ).loc main_arg3)))) (m ((c : Thread nD τ).loc main_arg4))) (W3 m ρ c (Proc.devRef .tc main_v5)) (W3 m ρ c (Proc.devRef .tc main_v6)) (W3 m ρ c (Proc.devRef .tc main_v29))) (m ((c : Thread nD τ).loc main_arg5)))) (m ((c : Thread nD τ).loc main_arg6))) := by
  rw [← hid2 m ρ c, ← W9_arg6 m ρ c]
  exact (W10_arr m ρ c 2).trans (Tile4.final (V9 m ρ) c)

/-- The third hidden array (no activation). -/
theorem hid3 : W12 m ρ c (Proc.devRef .tc main_v77) = (addVec (aggK (rowsDot (sigm (addVec (aggK (rowsDot (sigm (addVec (aggK (rowsDot (m ((c : Thread nD τ).loc main_arg0)) (m ((c : Thread nD τ).loc main_arg2))) (W3 m ρ c (Proc.devRef .tc main_v5)) (W3 m ρ c (Proc.devRef .tc main_v6)) (W3 m ρ c (Proc.devRef .tc main_v29))) (m ((c : Thread nD τ).loc main_arg3)))) (m ((c : Thread nD τ).loc main_arg4))) (W3 m ρ c (Proc.devRef .tc main_v5)) (W3 m ρ c (Proc.devRef .tc main_v6)) (W3 m ρ c (Proc.devRef .tc main_v29))) (m ((c : Thread nD τ).loc main_arg5)))) (m ((c : Thread nD τ).loc main_arg6))) (W3 m ρ c (Proc.devRef .tc main_v5)) (W3 m ρ c (Proc.devRef .tc main_v6)) (W3 m ρ c (Proc.devRef .tc main_v29))) (m ((c : Thread nD τ).loc main_arg7))) := by
  rw [← hw3 m ρ c, ← W11_v75 m ρ c, ← addRow_shapeCast _ _ shapeCasts_S32_S1x32, ← W11_v76 m ρ c]
  exact (W12_arr m ρ c 2).trans (Tile5.final (V11 m ρ) c)

/-- The result. -/
theorem result : W14 m ρ c (Proc.devRef .tc main_v79) = sigm (addVec (rowsDot (addVec (aggK (rowsDot (sigm (addVec (aggK (rowsDot (sigm (addVec (aggK (rowsDot (m ((c : Thread nD τ).loc main_arg0)) (m ((c : Thread nD τ).loc main_arg2))) (W3 m ρ c (Proc.devRef .tc main_v5)) (W3 m ρ c (Proc.devRef .tc main_v6)) (W3 m ρ c (Proc.devRef .tc main_v29))) (m ((c : Thread nD τ).loc main_arg3)))) (m ((c : Thread nD τ).loc main_arg4))) (W3 m ρ c (Proc.devRef .tc main_v5)) (W3 m ρ c (Proc.devRef .tc main_v6)) (W3 m ρ c (Proc.devRef .tc main_v29))) (m ((c : Thread nD τ).loc main_arg5)))) (m ((c : Thread nD τ).loc main_arg6))) (W3 m ρ c (Proc.devRef .tc main_v5)) (W3 m ρ c (Proc.devRef .tc main_v6)) (W3 m ρ c (Proc.devRef .tc main_v29))) (m ((c : Thread nD τ).loc main_arg7))) (m ((c : Thread nD τ).loc main_arg8))) (m ((c : Thread nD τ).loc main_arg9))) := by
  rw [← hid3 m ρ c, ← W13_v77 m ρ c, ← W13_arg8 m ρ c, ← addRow_shapeCast _ _ shapeCasts_S128_S1x128, ← W13_v78 m ρ c]
  exact (W14_arr m ρ c 3).trans (Tile6.final (V13 m ρ) c)

end Cert.KernelIdeal.Chain

end
-- ==== Proof.RefLayers.lean ====
/-
  The reference program, layer by layer.

  Each stage of the reference is one host operation. Read in groups they are the network's layers: a matrix
  product is the sum over the contracted axis; a bias vector spread over the rows and added is the bias added to every
  row; and 1.0 / (1.0 + exp (-z)) entry by entry is the logistic function. The aggregation over the edges (degrees,
  their inverse square roots gathered at both ends of every edge, the gathered rows scaled and summed into their
  destination rows) is kept as ONE function `agg` of the array of rows and the edge list; the reference computes the edge
  list's derived arrays again for every layer, by the same operations, so every layer's aggregation is that function.
-/
import proofs.«128537_j40252433498207_1_alg».proof.Proof.RefRead
import proofs.«128537_j40252433498207_1_alg».proof.Proof.LibPlainDot
import proofs.«128537_j40252433498207_1_alg».proof.Proof.LibLayerOps

noncomputable section

open scoped BigOperators

namespace Cert.ReferenceIdeal.Layers

open Cert.ReferenceIdeal Cert.ReferenceIdeal.ReadP Idealize.ShloMosaic Idealize.ShloMosaic.ValueIdx Cert.LayerOps

variable {F : FTy → Type} [FloatOps F]

/-- The aggregation over the edges of an array of rows: each edge's source row, scaled by the edge's normalisation,
    summed into the edge's destination row (self loops included). All of it is host operations on whole arrays. -/
def agg (hw : (⟨S200000x32, .f32⟩ : BufTy).Contents (Elt F)) (x1 : (⟨S2x6400000, .i32⟩ : BufTy).Contents (Elt F)) :
    (⟨S200000x32, .f32⟩ : BufTy).Contents (Elt F) :=
  Host.scatterAdd scatter_S200000x32_S6600000x1_S6600000x32_1_0_0_1 (val_main_v41 (F := F)) (val_main_v42 (F := F) x1)
    (mulf (Host.gather gather_S200000x32_S6600000x1_S6600000x32_1_0_n_n_0_1_132 hw (val_main_v36 (F := F) x1)) (val_main_v39 (F := F) x1))

/-- The first layer's aggregation is `agg` of the first product. -/
theorem v43_agg (x0 : (⟨S200000x128, .f32⟩ : BufTy).Contents (Elt F)) (x1 : (⟨S2x6400000, .i32⟩ : BufTy).Contents (Elt F)) (x2 : (⟨S128x32, .f32⟩ : BufTy).Contents (Elt F)) :
    val_main_v43 (F := F) x0 x1 x2 = agg (val_main_v4 (F := F) x0 x2) x1 := rfl

/-- The second layer recomputes the edge list's arrays by the same operations: its aggregation is `agg` of the second product. -/
theorem v92_agg (x0 : (⟨S200000x128, .f32⟩ : BufTy).Contents (Elt F)) (x1 : (⟨S2x6400000, .i32⟩ : BufTy).Contents (Elt F)) (x2 : (⟨S128x32, .f32⟩ : BufTy).Contents (Elt F)) (x3 : (⟨S32, .f32⟩ : BufTy).Contents (Elt F)) (x4 : (⟨S32x32, .f32⟩ : BufTy).Contents (Elt F)) :
    val_main_v92 (F := F) x0 x1 x2 x3 x4 = agg (val_main_v53 (F := F) x0 x1 x2 x3 x4) x1 := rfl

/-- So does the third. -/
theorem v141_agg (x0 : (⟨S200000x128, .f32⟩ : BufTy).Contents (Elt F)) (x1 : (⟨S2x6400000, .i32⟩ : BufTy).Contents (Elt F)) (x2 : (⟨S128x32, .f32⟩ : BufTy).Contents (Elt F)) (x3 : (⟨S32, .f32⟩ : BufTy).Contents (Elt F)) (x4 : (⟨S32x32, .f32⟩ : BufTy).Contents (Elt F)) (x5 : (⟨S32, .f32⟩ : BufTy).Contents (Elt F)) (x6 : (⟨S32x32, .f32⟩ : BufTy).Contents (Elt F)) :
    val_main_v141 (F := F) x0 x1 x2 x3 x4 x5 x6 = agg (val_main_v102 (F := F) x0 x1 x2 x3 x4 x5 x6) x1 := rfl

/-! ## The layers, on the extended reals -/

/-- The first product: node features times the first layer's weights. -/
theorem v4_eq (x0 : (⟨S200000x128, .f32⟩ : BufTy).Contents (Elt Ideal)) (x2 : (⟨S128x32, .f32⟩ : BufTy).Contents (Elt Ideal)) :
    val_main_v4 (F := Ideal) x0 x2 = rowsDot (x0) x2 := by
  funext i
  obtain ⟨r, q, rfl⟩ : ∃ (r : Fin 200000) (q : Fin 32), i = ix2 r q := ⟨row i, col i, eq_row_col i⟩
  unfold val_main_v4
  simp only [Host.dotGeneral]
  exact Cert.PlainDot.dotGeneral_apply _ rfl rfl lhs_main_v4_0 lhs_main_v4_1 rhs_main_v4_0 rhs_main_v4_1 none _ _ x2 r q

/-- The first hidden array: the logistic function of the aggregation plus the bias. -/
theorem v52_eq (x0 : (⟨S200000x128, .f32⟩ : BufTy).Contents (Elt Ideal)) (x1 : (⟨S2x6400000, .i32⟩ : BufTy).Contents (Elt Ideal)) (x2 : (⟨S128x32, .f32⟩ : BufTy).Contents (Elt Ideal)) (x3 : (⟨S32, .f32⟩ : BufTy).Contents (Elt Ideal)) :
    val_main_v52 (F := Ideal) x0 x1 x2 x3 = sigm (addVec (val_main_v43 (F := Ideal) x0 x1 x2) x3) := by
  funext i
  obtain ⟨r, q, rfl⟩ : ∃ (r : Fin 200000) (q : Fin 32), i = ix2 r q := ⟨row i, col i, eq_row_col i⟩
  rw [val_main_v52_apply, val_main_v51_apply, val_main_cst_10_apply, val_main_v50_apply, val_main_v49_apply, val_main_cst_9_apply,
    val_main_v48_apply, val_main_v47_apply, val_main_v46_apply, val_main_v45_apply, val_main_v44_apply]
  have hb : idx_main_v44 (idx_main_v45 (ix2 r q)) = ix1 q := funext fun a => match a with | ⟨0, _⟩ => rfl
  rw [hb]
  exact logistic_host _

/-- The second product. -/
theorem v53_eq (x0 : (⟨S200000x128, .f32⟩ : BufTy).Contents (Elt Ideal)) (x1 : (⟨S2x6400000, .i32⟩ : BufTy).Contents (Elt Ideal)) (x2 : (⟨S128x32, .f32⟩ : BufTy).Contents (Elt Ideal)) (x3 : (⟨S32, .f32⟩ : BufTy).Contents (Elt Ideal)) (x4 : (⟨S32x32, .f32⟩ : BufTy).Contents (Elt Ideal)) :
    val_main_v53 (F := Ideal) x0 x1 x2 x3 x4 = rowsDot (val_main_v52 (F := Ideal) x0 x1 x2 x3) x4 := by
  funext i
  obtain ⟨r, q, rfl⟩ : ∃ (r : Fin 200000) (q : Fin 32), i = ix2 r q := ⟨row i, col i, eq_row_col i⟩
  unfold val_main_v53
  simp only [Host.dotGeneral]
  exact Cert.PlainDot.dotGeneral_apply _ rfl rfl lhs_main_v53_0 lhs_main_v53_1 rhs_main_v53_0 rhs_main_v53_1 none _ _ x4 r q

/-- The second hidden array. -/
theorem v101_eq (x0 : (⟨S200000x128, .f32⟩ : BufTy).Contents (Elt Ideal)) (x1 : (⟨S2x6400000, .i32⟩ : BufTy).Contents (Elt Ideal)) (x2 : (⟨S128x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) :
    val_main_v101 (F := Ideal) x0 x1 x2 x3 x4 x5 = sigm (addVec (val_main_v92 (F := Ideal) x0 x1 x2 x3 x4) x5) := by
  funext i
  obtain ⟨r, q, rfl⟩ : ∃ (r : Fin 200000) (q : Fin 32), i = ix2 r q := ⟨row i, col i, eq_row_col i⟩
  rw [val_main_v101_apply, val_main_v100_apply, val_main_cst_23_apply, val_main_v99_apply, val_main_v98_apply, val_main_cst_22_apply,
    val_main_v97_apply, val_main_v96_apply, val_main_v95_apply, val_main_v94_apply, val_main_v93_apply]
  have hb : idx_main_v93 (idx_main_v94 (ix2 r q)) = ix1 q := funext fun a => match a with | ⟨0, _⟩ => rfl
  rw [hb]
  exact logistic_host _

/-- The third product. -/
theorem v102_eq (x0 : (⟨S200000x128, .f32⟩ : BufTy).Contents (Elt Ideal)) (x1 : (⟨S2x6400000, .i32⟩ : BufTy).Contents (Elt Ideal)) (x2 : (⟨S128x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x32, .f32⟩ : BufTy).Contents (Elt Ideal)) :
    val_main_v102 (F := Ideal) x0 x1 x2 x3 x4 x5 x6 = rowsDot (val_main_v101 (F := Ideal) x0 x1 x2 x3 x4 x5) x6 := by
  funext i
  obtain ⟨r, q, rfl⟩ : ∃ (r : Fin 200000) (q : Fin 32), i = ix2 r q := ⟨row i, col i, eq_row_col i⟩
  unfold val_main_v102
  simp only [Host.dotGeneral]
  exact Cert.PlainDot.dotGeneral_apply _ rfl rfl lhs_main_v102_0 lhs_main_v102_1 rhs_main_v102_0 rhs_main_v102_1 none _ _ x6 r q

/-- The third hidden array: the aggregation plus the bias, no activation. -/
theorem v144_eq (x0 : (⟨S200000x128, .f32⟩ : BufTy).Contents (Elt Ideal)) (x1 : (⟨S2x6400000, .i32⟩ : BufTy).Contents (Elt Ideal)) (x2 : (⟨S128x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) :
    val_main_v144 (F := Ideal) x0 x1 x2 x3 x4 x5 x6 x7 = addVec (val_main_v141 (F := Ideal) x0 x1 x2 x3 x4 x5 x6) x7 := by
  funext i
  obtain ⟨r, q, rfl⟩ : ∃ (r : Fin 200000) (q : Fin 32), i = ix2 r q := ⟨row i, col i, eq_row_col i⟩
  rw [val_main_v144_apply, val_main_v143_apply, val_main_v142_apply]
  have hb : idx_main_v142 (idx_main_v143 (ix2 r q)) = ix1 q := funext fun a => match a with | ⟨0, _⟩ => rfl
  rw [hb]
  rfl

/-- The output head's product. -/
theorem v145_eq (x0 : (⟨S200000x128, .f32⟩ : BufTy).Contents (Elt Ideal)) (x1 : (⟨S2x6400000, .i32⟩ : BufTy).Contents (Elt Ideal)) (x2 : (⟨S128x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S32x128, .f32⟩ : BufTy).Contents (Elt Ideal)) :
    val_main_v145 (F := Ideal) x0 x1 x2 x3 x4 x5 x6 x7 x8 = rowsDot (val_main_v144 (F := Ideal) x0 x1 x2 x3 x4 x5 x6 x7) x8 := by
  funext i
  obtain ⟨r, q, rfl⟩ : ∃ (r : Fin 200000) (q : Fin 128), i = ix2 r q := ⟨row i, col i, eq_row_col i⟩
  unfold val_main_v145
  simp only [Host.dotGeneral]
  exact Cert.PlainDot.dotGeneral_apply _ rfl rfl lhs_main_v145_0 lhs_main_v145_1 rhs_main_v145_0 rhs_main_v145_1 none _ _ x8 r q

/-- The result: the logistic function of the head's product plus its bias. -/
theorem v154_eq (x0 : (⟨S200000x128, .f32⟩ : BufTy).Contents (Elt Ideal)) (x1 : (⟨S2x6400000, .i32⟩ : BufTy).Contents (Elt Ideal)) (x2 : (⟨S128x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S32x128, .f32⟩ : BufTy).Contents (Elt Ideal)) (x9 : (⟨S128, .f32⟩ : BufTy).Contents (Elt Ideal)) :
    val_main_v154 (F := Ideal) x0 x1 x2 x3 x4 x5 x6 x7 x8 x9 = sigm (addVec (val_main_v145 (F := Ideal) x0 x1 x2 x3 x4 x5 x6 x7 x8) x9) := by
  funext i
  obtain ⟨r, q, rfl⟩ : ∃ (r : Fin 200000) (q : Fin 128), i = ix2 r q := ⟨row i, col i, eq_row_col i⟩
  rw [val_main_v154_apply, val_main_v153_apply, val_main_cst_36_apply, val_main_v152_apply, val_main_v151_apply, val_main_cst_35_apply,
    val_main_v150_apply, val_main_v149_apply, val_main_v148_apply, val_main_v147_apply, val_main_v146_apply]
  have hb : idx_main_v146 (idx_main_v147 (ix2 r q)) = ix1 q := funext fun a => match a with | ⟨0, _⟩ => rfl
  rw [hb]
  exact logistic_host _

/-- The reference's result as the network: three rounds of product, aggregation and bias, the first two through the
    logistic function, then the head. -/
theorem result_eq (x0 : (⟨S200000x128, .f32⟩ : BufTy).Contents (Elt Ideal)) (x1 : (⟨S2x6400000, .i32⟩ : BufTy).Contents (Elt Ideal)) (x2 : (⟨S128x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S32x128, .f32⟩ : BufTy).Contents (Elt Ideal)) (x9 : (⟨S128, .f32⟩ : BufTy).Contents (Elt Ideal)) :
    val_main_v154 (F := Ideal) x0 x1 x2 x3 x4 x5 x6 x7 x8 x9
      = sigm (addVec (rowsDot (addVec (agg (rowsDot (sigm (addVec (agg (rowsDot (sigm (addVec (agg (rowsDot x0 x2) x1) x3)) x4) x1) x5)) x6) x1) x7) x8) x9) := by
  rw [v154_eq, v145_eq, v144_eq, v141_agg, v102_eq, v101_eq, v92_agg, v53_eq, v52_eq, v43_agg, v4_eq]

end Cert.ReferenceIdeal.Layers

end
-- ==== Proof.Bridge.lean ====
/-
  The two programs compute one function.

  The kernel program computes the edge list's derived arrays once, in three stretches of host operations before its
  first region: the two index vectors with the self loops appended and the degrees (first stretch), the inverse square
  roots of the positive degrees (second), and each edge's normalisation, the product of the inverse square roots
  gathered at its two ends (third). The reference names the same arrays by the same operations of the edge list. With
  those identified, the kernel's aggregation between two regions is the reference's aggregation function, and the
  kernel's result read back through its boundaries is the reference's result.
-/
import proofs.«128537_j40252433498207_1_alg».proof.Proof.KernelChain
import proofs.«128537_j40252433498207_1_alg».proof.Proof.RefLayers

set_option maxRecDepth 16384

noncomputable section

open Idealize.ShloMosaic Idealize.ShloMosaic.TcCoe Idealize.SL.Sem Idealize.ShloMosaic.StableHlo

namespace Cert.Proof.Bridge

open Cert.KernelIdeal Cert.KernelIdeal.Gen Cert.LayerOps

variable (m : (ℓ : Loc nD τ sig) → Buf (Elt Ideal) ℓ) (ρ : Dev nD → PrngReg) (c : Dev nD)

/-! ## After the first stretch -/

/-- The edges' source vector with every node appended once (the self loops). -/
theorem sources1 : W1 m ρ c (Proc.devRef .tc main_v5) = Cert.ReferenceIdeal.ReadP.val_main_v6 (F := Ideal) (m ((c : Thread nD τ).loc main_arg1)) := by
  show StableHlo.after hostOps0 (W0 m ρ c) (Proc.devRef .tc main_v5) = _
  dsimp only [hostOps0]
  after_results
  rfl

/-- The edges' destination vector with every node appended once. -/
theorem targets1 : W1 m ρ c (Proc.devRef .tc main_v6) = Cert.ReferenceIdeal.ReadP.val_main_v7 (F := Ideal) (m ((c : Thread nD τ).loc main_arg1)) := by
  show StableHlo.after hostOps0 (W0 m ρ c) (Proc.devRef .tc main_v6) = _
  dsimp only [hostOps0]
  after_results
  rfl

/-- Which nodes have a positive degree (the degree counts the edges that end at the node, its self loop among them). -/
theorem positive1 : W1 m ρ c (Proc.devRef .tc main_v12) = Cert.ReferenceIdeal.ReadP.val_main_v13 (F := Ideal) (m ((c : Thread nD τ).loc main_arg1)) := by
  show StableHlo.after hostOps0 (W0 m ρ c) (Proc.devRef .tc main_v12) = _
  dsimp only [hostOps0]
  after_results
  rfl

/-- The inverse square roots of the degrees. -/
theorem rsqrt1 : W1 m ρ c (Proc.devRef .tc main_v13) = Cert.ReferenceIdeal.ReadP.val_main_v14 (F := Ideal) (m ((c : Thread nD τ).loc main_arg1)) := by
  show StableHlo.after hostOps0 (W0 m ρ c) (Proc.devRef .tc main_v13) = _
  dsimp only [hostOps0]
  after_results
  rfl

/-- The zero that stands for the inverse square root where the degree is not positive. -/
theorem zero1 : W1 m ρ c (Proc.devRef .tc main_cst_2) = Cert.ReferenceIdeal.ReadP.val_main_cst_2 (F := Ideal) := by
  show StableHlo.after hostOps0 (W0 m ρ c) (Proc.devRef .tc main_cst_2) = _
  dsimp only [hostOps0]
  after_results
  rfl

/-! ## After the second stretch -/

/-- The inverse square roots of the positive degrees, zero elsewhere. -/
theorem dinv2 : W2 m ρ c (Proc.devRef .tc main_v14) = Cert.ReferenceIdeal.ReadP.val_main_v15 (F := Ideal) (m ((c : Thread nD τ).loc main_arg1)) := by
  unfold Cert.ReferenceIdeal.ReadP.val_main_v15 Cert.ReferenceIdeal.ReadP.val_main_call0_v1 Cert.ReferenceIdeal.ReadP.val_main_call0_v0
  rw [← positive1 m ρ c, ← rsqrt1 m ρ c, ← zero1 m ρ c]
  show StableHlo.after hostOps0_1 (W1 m ρ c) (Proc.devRef .tc main_v14) = _
  generalize W1 m ρ c = V1
  dsimp only [hostOps0_1]
  after_results
  rfl

theorem sources2 : W2 m ρ c (Proc.devRef .tc main_v5) = Cert.ReferenceIdeal.ReadP.val_main_v6 (F := Ideal) (m ((c : Thread nD τ).loc main_arg1)) :=
  (by host_keep : W2 m ρ c (Proc.devRef .tc main_v5) = W1 m ρ c (Proc.devRef .tc main_v5)).trans (sources1 m ρ c)

theorem targets2 : W2 m ρ c (Proc.devRef .tc main_v6) = Cert.ReferenceIdeal.ReadP.val_main_v7 (F := Ideal) (m ((c : Thread nD τ).loc main_arg1)) :=
  (by host_keep : W2 m ρ c (Proc.devRef .tc main_v6) = W1 m ρ c (Proc.devRef .tc main_v6)).trans (targets1 m ρ c)

/-! ## After the third stretch: what every layer reads -/

/-- The edges' source vector with the self loops appended, as the kernel program computes it before its first region,
    is the reference's. -/
theorem sources_eq : W3 m ρ c (Proc.devRef .tc main_v5) = Cert.ReferenceIdeal.ReadP.val_main_v6 (F := Ideal) (m ((c : Thread nD τ).loc main_arg1)) :=
  (by host_keep : W3 m ρ c (Proc.devRef .tc main_v5) = W2 m ρ c (Proc.devRef .tc main_v5)).trans (sources2 m ρ c)

/-- So is the destination vector. -/
theorem targets_eq : W3 m ρ c (Proc.devRef .tc main_v6) = Cert.ReferenceIdeal.ReadP.val_main_v7 (F := Ideal) (m ((c : Thread nD τ).loc main_arg1)) :=
  (by host_keep : W3 m ρ c (Proc.devRef .tc main_v6) = W2 m ρ c (Proc.devRef .tc main_v6)).trans (targets2 m ρ c)

set_option maxHeartbeats 4000000 in
/-- And every edge's normalisation: the inverse square roots of the two ends' degrees, multiplied. -/
theorem norms_eq : W3 m ρ c (Proc.devRef .tc main_v29) = Cert.ReferenceIdeal.ReadP.val_main_v30 (F := Ideal) (m ((c : Thread nD τ).loc main_arg1)) := by
  unfold Cert.ReferenceIdeal.ReadP.val_main_v30 Cert.ReferenceIdeal.ReadP.val_main_v22 Cert.ReferenceIdeal.ReadP.val_main_v29 Cert.ReferenceIdeal.ReadP.val_main_v21 Cert.ReferenceIdeal.ReadP.val_main_v28 Cert.ReferenceIdeal.ReadP.val_main_v20 Cert.ReferenceIdeal.ReadP.val_main_v27
    Cert.ReferenceIdeal.ReadP.val_main_v17 Cert.ReferenceIdeal.ReadP.val_main_v24 Cert.ReferenceIdeal.ReadP.val_main_v19 Cert.ReferenceIdeal.ReadP.val_main_v26
  rw [← dinv2 m ρ c, ← sources2 m ρ c, ← targets2 m ρ c]
  show StableHlo.after hostOps0_2 (W2 m ρ c) (Proc.devRef .tc main_v29) = _
  generalize W2 m ρ c = V2
  dsimp only [hostOps0_2]
  after_results
  rfl

/-- The kernel program's aggregation between two regions is the reference's aggregation function of the same rows. -/
theorem agg_eq (hw : (⟨S200000x32, .f32⟩ : BufTy).Contents (Elt Ideal)) :
    Chain.aggK hw (W3 m ρ c (Proc.devRef .tc main_v5)) (W3 m ρ c (Proc.devRef .tc main_v6)) (W3 m ρ c (Proc.devRef .tc main_v29))
      = Cert.ReferenceIdeal.Layers.agg (F := Ideal) hw (m ((c : Thread nD τ).loc main_arg1)) := by
  rw [sources_eq, targets_eq, norms_eq]
  rfl

/-- The kernel program's result is the reference's result function of the kernel program's arguments. -/
theorem result_eq : W14 m ρ c (Proc.devRef .tc main_v79)
    = Cert.ReferenceIdeal.ReadP.val_main_v154 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) := by
  rw [Chain.result m ρ c, Cert.ReferenceIdeal.Layers.result_eq, agg_eq m ρ c, agg_eq m ρ c, agg_eq m ρ c]

end Cert.Proof.Bridge

end
-- ==== Proof.lean ====
/-
  The certificate of a three-layer graph convolution network with a logistic output head, as tiled kernels, against
  its plain reference, on the extended reals.

  Both programs compute, for node features x, an edge list e and weights W1, b1, W2, b2, W3, b3, Wl, bl,

      logistic ((A (logistic (A (logistic (A (x · W1) + b1) · W2) + b2) · W3) + b3) · Wl + bl)

  where A is the aggregation over the edges with self loops, each edge weighted by the inverse square roots of its two
  ends' degrees. The kernel program runs every product, bias and logistic function as a region of 25 row tiles and
  leaves the aggregation to host operations between the regions; the reference is host operations throughout. On the
  extended reals a product is the sum over the contracted axis however it is tiled, narrowing an operand's float
  format is the identity, and the kernel's logistic operation is 1 / (1 + exp (-z)) as the reference spells it; the
  aggregation is the same host operations in both programs and is carried as one function. No law of arithmetic beyond
  these identities is used, so the precondition is never opened.

  The frames of the two kernel programs are the generated ones; the reference's frame is its run with the result
  forgotten. The ideal pass rewrote nothing, so `preserves` is `True`.
-/
import proofs.«128537_j40252433498207_1_alg».proof.Defs
import proofs.«128537_j40252433498207_1_alg».proof.Proof.Gen.Kernel
import proofs.«128537_j40252433498207_1_alg».proof.Proof.Gen.Kernel.Frame
import proofs.«128537_j40252433498207_1_alg».proof.Proof.Gen.KernelIdeal
import proofs.«128537_j40252433498207_1_alg».proof.Proof.Gen.KernelIdeal.Frame
import proofs.«128537_j40252433498207_1_alg».proof.Proof.Gen.ReferenceIdeal
import proofs.«128537_j40252433498207_1_alg».proof.Proof.Gen.Pre_finite_inputs
import proofs.«128537_j40252433498207_1_alg».proof.Proof.RefRun
import proofs.«128537_j40252433498207_1_alg».proof.Proof.RefRead
import proofs.«128537_j40252433498207_1_alg».proof.Proof.KernelRun
import proofs.«128537_j40252433498207_1_alg».proof.Proof.Bridge

noncomputable section

namespace Cert.Proof

open Idealize.ShloMosaic Idealize.ShloMosaic.TcCoe Idealize.SL.Sem

/-- The kernel program as printed terminates with its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories that agree on the arguments both programs end with the network's value of those arguments in their
    result buffers: the kernel program's run read back through its boundaries, the reference's run read stage by stage. -/
theorem algebraic : Cert.algebraic_KernelIdeal_ReferenceIdeal := by
  intro m ρ m' ρ' _ hagree
  refine ⟨fun c => Cert.KernelIdeal.Gen.W14 m ρ c (Proc.devRef .tc Cert.KernelIdeal.main_v79), Cert.KernelIdeal.Whole.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9⟩ := hagree c
  rw [Cert.ReferenceIdeal.ReadP.val_main_v154_eq, e0, e1, e2, e3, e4, e5, e6, e7, e8, e9]
  exact (Cert.Proof.Bridge.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
